-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg7 : FVec F S256 .f32) (main_arg8 : FVec F S256x10 .f32) (main_arg9 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x10 .f32 := Host.absf main_arg8
  let main_cst_8 : FVec F S_ .f32 := constant S_ .f32 0x7F800000#32
  let main_v25 : FVec F S256x10 .f32 := broadcastInDim S256x10 ![] bcast_S_S256x10 main_cst_8
  let main_v26 : IVec S256x10 1 := cmpf .olt main_v24 main_v25
  let main_c_9 : IVec S_ 1 := constantI S_ 1 1#1
  let main_v27 : IVec S_ 1 := (fun x v => Host.reduce IntOp.andi x v reducesTo_S256x10_S_d0_1 h_S_) main_v26 main_c_9
  let main_v28 : IVec S_ 1 := andi main_v23 main_v27
  let main_v29 : FVec F S10 .f32 := Host.absf main_arg9
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S40000x128 .f32) (main_arg1 : IVec S640000 32) (main_arg2 : IVec S640000 32) (main_arg3 : IVec S40000 32) (main_arg4 : FVec F S128x256 .f32) (main_arg5 : FVec F S256 .f32) (main_arg6 : FVec F S256x256 .f32) (main_arg7 : FVec F S256 .f32) (main_arg8 : FVec F S256x10 .f32) (main_arg9 : FVec F S10 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg7 main_arg8 main_arg9 main_v13 main_v16
-- ==== Kernel.lean ====
abbrev S40000x128 : Shape := ⟨2, ![40000, 128]⟩
abbrev S640000 : Shape := ⟨1, ![640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩
abbrev S640000x1 : Shape := ⟨2, ![640000, 1]⟩
abbrev S40000x1 : Shape := ⟨2, ![40000, 1]⟩
abbrev S640000x128 : Shape := ⟨2, ![640000, 128]⟩
abbrev S1x256 : Shape := ⟨2, ![1, 256]⟩
abbrev S40000x256 : Shape := ⟨2, ![40000, 256]⟩
abbrev S4000x128 : Shape := ⟨2, ![4000, 128]⟩
abbrev S4000x256 : Shape := ⟨2, ![4000, 256]⟩
abbrev S640000x256 : Shape := ⟨2, ![640000, 256]⟩
abbrev S128 : Shape := ⟨1, ![128]⟩
abbrev S128x1 : Shape := ⟨2, ![128, 1]⟩
abbrev S1x10 : Shape := ⟨2, ![1, 10]⟩
abbrev S128x10 : Shape := ⟨2, ![128, 10]⟩

abbrev nBuf : Space → Nat
  | .hbm => 103
  | .vmem => 16
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S40000, .i32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x10, .f32⟩
  | .hbm, ⟨9, _⟩ => ⟨S10, .f32⟩
  | .hbm, ⟨10, _⟩ => ⟨S_, .f32⟩
  | .hbm, ⟨11, _⟩ => ⟨S640000, .f32⟩
  | .hbm, ⟨12, _⟩ => ⟨S_, .f32⟩
  | .hbm, ⟨13, _⟩ => ⟨S40000, .f32⟩
  | .hbm, ⟨14, _⟩ => ⟨S640000x1, .i32⟩
  | .hbm, ⟨15, _⟩ => ⟨S40000, .f32⟩
  | .hbm, ⟨16, _⟩ => ⟨S_, .f32⟩
  | .hbm, ⟨17, _⟩ => ⟨S_, .f32⟩
  | .hbm, ⟨18, _⟩ => ⟨S40000, .f32⟩
  | .hbm, ⟨19, _⟩ => ⟨S40000, .f32⟩
  | .hbm, ⟨20, _⟩ => ⟨S_, .f32⟩
  | .hbm, ⟨21, _⟩ => ⟨S40000, .f32⟩
  | .hbm, ⟨22, _⟩ => ⟨S640000x1, .i32⟩
  | .hbm, ⟨23, _⟩ => ⟨S40000, .f32⟩
  | .hbm, ⟨24, _⟩ => ⟨S_, .f32⟩
  | .hbm, ⟨25, _⟩ => ⟨S_, .f32⟩
  | .hbm, ⟨26, _⟩ => ⟨S40000, .f32⟩
  | .hbm, ⟨27, _⟩ => ⟨S40000, .f32⟩
  | .hbm, ⟨28, _⟩ => ⟨S40000, .f32⟩
  | .hbm, ⟨29, _⟩ => ⟨S40000x1, .f32⟩
  | .hbm, ⟨30, _⟩ => ⟨S40000, .f32⟩
  | .hbm, ⟨31, _⟩ => ⟨S40000x1, .f32⟩
  | .hbm, ⟨32, _⟩ => ⟨S40000x128, .f32⟩
  | .hbm, ⟨33, _⟩ => ⟨S40000x128, .f32⟩
  | .hbm, ⟨34, _⟩ => ⟨S_, .f32⟩
  | .hbm, ⟨35, _⟩ => ⟨S40000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S40000x128, .f32⟩
  | .hbm, ⟨54, _⟩ => ⟨S40000x128, .f32⟩
  | .hbm, ⟨55, _⟩ => ⟨S40000x128, .f32⟩
  | .hbm, ⟨56, _⟩ => ⟨S1x256, .f32⟩
  | .hbm, ⟨57, _⟩ => ⟨S40000x256, .f32⟩
  | .hbm, ⟨58, _⟩ => ⟨S40000x256, .f32⟩
  | .hbm, ⟨59, _⟩ => ⟨S40000x256, .f32⟩
  | .hbm, ⟨60, _⟩ => ⟨S_, .f32⟩
  | .hbm, ⟨61, _⟩ => ⟨S40000x256, .f32⟩
  | .hbm, ⟨62, _⟩ => ⟨S_, .i32⟩
  | .hbm, ⟨63, _⟩ => ⟨S640000, .i32⟩
  | .hbm, ⟨64, _⟩ => ⟨S640000, .i1⟩
  | .hbm, ⟨65, _⟩ => ⟨S_, .i32⟩
  | .hbm, ⟨66, _⟩ => ⟨S640000, .i32⟩
  | .hbm, ⟨67, _⟩ => ⟨S640000, .i32⟩
  | .hbm, ⟨68, _⟩ => ⟨S640000, .i32⟩
  | .hbm, ⟨69, _⟩ => ⟨S640000x1, .i32⟩
  | .hbm, ⟨70, _⟩ => ⟨S640000x256, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S40000x256, .f32⟩
  | .hbm, ⟨80, _⟩ => ⟨S40000x256, .f32⟩
  | .hbm, ⟨81, _⟩ => ⟨S40000x256, .f32⟩
  | .hbm, ⟨82, _⟩ => ⟨S1x256, .f32⟩
  | .hbm, ⟨83, _⟩ => ⟨S40000x256, .f32⟩
  | .hbm, ⟨84, _⟩ => ⟨S_, .f32⟩
  | .hbm, ⟨85, _⟩ => ⟨S128x256, .f32⟩
  | .hbm, ⟨86, _⟩ => ⟨S40000x1, .i32⟩
  | .hbm, ⟨87, _⟩ => ⟨S128x256, .f32⟩
  | .hbm, ⟨88, _⟩ => ⟨S_, .f32⟩
  | .hbm, ⟨89, _⟩ => ⟨S40000, .f32⟩
  | .hbm, ⟨90, _⟩ => ⟨S_, .f32⟩
  | .hbm, ⟨91, _⟩ => ⟨S128, .f32⟩
  | .hbm, ⟨92, _⟩ => ⟨S40000x1, .i32⟩
  | .hbm, ⟨93, _⟩ => ⟨S128, .f32⟩
  | .hbm, ⟨94, _⟩ => ⟨S_, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128x1, .f32⟩
  | .hbm, ⟨99, _⟩ => ⟨S128x256, .f32⟩
  | .hbm, ⟨100, _⟩ => ⟨S128x256, .f32⟩
  | .hbm, ⟨101, _⟩ => ⟨S1x10, .f32⟩
  | .hbm, ⟨102, _⟩ => ⟨S128x10, .f32⟩
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S4000x256, .f32⟩
  | .local _ .vmem, ⟨8, _⟩ => ⟨S256x256, .f32⟩
  | .local _ .vmem, ⟨9, _⟩ => ⟨S1x256, .f32⟩
  | .local _ .vmem, ⟨10, _⟩ => ⟨S4000x256, .f32⟩
  | .local _ .vmem, ⟨11, _⟩ => ⟨S4000x256, .f32⟩
  | .local _ .vmem, ⟨12, _⟩ => ⟨S128x256, .f32⟩
  | .local _ .vmem, ⟨13, _⟩ => ⟨S256x10, .f32⟩
  | .local _ .vmem, ⟨14, _⟩ => ⟨S1x10, .f32⟩
  | .local _ .vmem, ⟨15, _⟩ => ⟨S128x10, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_14 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_16 : Ref sig .tc := ⟨.hbm, 94, rfl⟩
abbrev main_call2_v0 : Ref sig .tc := ⟨.hbm, 95, rfl⟩
abbrev main_call2_v1 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S128x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S256x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S_S40000x128 : S_.BroadcastsInDim S40000x128 (![] : Fin 0 → Fin S40000x128.rank)
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S40000x1_S40000x256_0_1 : S40000x1.BroadcastsInDim S40000x256 (![0, 1] : Fin 2 → Fin S40000x256.rank)
  bcast_S_S40000x256 : S_.BroadcastsInDim S40000x256 (![] : Fin 0 → Fin S40000x256.rank)
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  shapeCasts_S10_S1x10 : S10.ShapeCasts S1x10
  shapeCasts_S128x256_S128x256 : S128x256.ShapeCasts S128x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x256_S4000x256_1_0_0_1_n_n_wf : DotDims.WF S4000x128 S128x256 S4000x256 [1] [0] [0] [1] [] []
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S4000x256_S256x256_S4000x256_1_0_0_1_n_n_wf : DotDims.WF S4000x256 S256x256 S4000x256 [1] [0] [0] [1] [] []
  scatter_S128x256_S40000x1_S40000x256_1_0_0_1_wf : ScatterDims.WF S128x256 S40000x1 S40000x256 [1] [0] [0] 1
  scatter_S128_S40000x1_S40000_n_0_0_1_wf : ScatterDims.WF S128 S40000x1 S40000 [] [0] [0] 1
  dot_S128x256_S256x10_S128x10_1_0_0_1_n_n_wf : DotDims.WF S128x256 S256x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S40000x256.size a
  hwx0_3 : ∀ i : grid0.Coords, EltTy.bits .f32 = 32 ∨ (Rect.block (s := S40000x256) S4000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S40000x256.size a
  hwx1_0 : ∀ i : grid1.Coords, EltTy.bits .f32 = 32 ∨ (Rect.block (s := S40000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x256.size a ≤ S40000x256.size a
  hwx1_3 : ∀ i : grid1.Coords, EltTy.bits .f32 = 32 ∨ (Rect.block (s := S40000x256) S4000x256.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S128x256.size a ≤ S128x256.size a
  hwx2_0 : ∀ i : grid2.Coords, EltTy.bits .f32 = 32 ∨ (Rect.block (s := S128x256) S128x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x10.size a ≤ S256x10.size a
  hwx2_1 : ∀ i : grid2.Coords, EltTy.bits .f32 = 32 ∨ (Rect.block (s := S256x10) S256x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S128x10.size a ≤ S128x10.size a
  hwx2_3 : ∀ i : grid2.Coords, EltTy.bits .f32 = 32 ∨ (Rect.block (s := S128x10) S128x10.size (cc2_transform_3 i) (hinb2_3 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S128x256_S40000x1_S40000x256_1_0_0_1 : ScatterDims S128x256 S40000x1 S40000x256 where
  updateWindowDims := [1]
  insertedWindowDims := [0]
  scatterDimsToOperandDims := [0]
  indexVectorDim := 1
  wf := scatter_S128x256_S40000x1_S40000x256_1_0_0_1_wf
def scatter_S128_S40000x1_S40000_n_0_0_1 : ScatterDims S128 S40000x1 S40000 where
  updateWindowDims := []
  insertedWindowDims := [0]
  scatterDimsToOperandDims := [0]
  indexVectorDim := 1
  wf := scatter_S128_S40000x1_S40000_n_0_0_1_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

abbrev win0_0 : Pipeline.Window sig grid0 :=
  Pipeline.Window.ofSpec (Memref.whole main_v31) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S4000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S128x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x10.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S40000x128 : Shape := ⟨2, ![40000, 128]⟩
abbrev S640000 : Shape := ⟨1, ![640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩
abbrev S640000x1 : Shape := ⟨2, ![640000, 1]⟩
abbrev S40000x1 : Shape := ⟨2, ![40000, 1]⟩
abbrev S640000x128 : Shape := ⟨2, ![640000, 128]⟩
abbrev S40000x256 : Shape := ⟨2, ![40000, 256]⟩
abbrev S1x256 : Shape := ⟨2, ![1, 256]⟩
abbrev S640000x256 : Shape := ⟨2, ![640000, 256]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 125
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S40000, .i32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x10, .f32⟩
  | .hbm, ⟨9, _⟩ => ⟨S10, .f32⟩
  | .hbm, ⟨10, _⟩ => ⟨S_, .f32⟩
  | .hbm, ⟨11, _⟩ => ⟨S640000, .f32⟩
  | .hbm, ⟨12, _⟩ => ⟨S_, .f32⟩
  | .hbm, ⟨13, _⟩ => ⟨S40000, .f32⟩
  | .hbm, ⟨14, _⟩ => ⟨S640000x1, .i32⟩
  | .hbm, ⟨15, _⟩ => ⟨S40000, .f32⟩
  | .hbm, ⟨16, _⟩ => ⟨S_, .f32⟩
  | .hbm, ⟨17, _⟩ => ⟨S_, .f32⟩
  | .hbm, ⟨18, _⟩ => ⟨S40000, .f32⟩
  | .hbm, ⟨19, _⟩ => ⟨S40000, .f32⟩
  | .hbm, ⟨20, _⟩ => ⟨S_, .f32⟩
  | .hbm, ⟨21, _⟩ => ⟨S40000, .f32⟩
  | .hbm, ⟨22, _⟩ => ⟨S640000x1, .i32⟩
  | .hbm, ⟨23, _⟩ => ⟨S40000, .f32⟩
  | .hbm, ⟨24, _⟩ => ⟨S_, .f32⟩
  | .hbm, ⟨25, _⟩ => ⟨S_, .f32⟩
  | .hbm, ⟨26, _⟩ => ⟨S40000, .f32⟩
  | .hbm, ⟨27, _⟩ => ⟨S40000, .f32⟩
  | .hbm, ⟨28, _⟩ => ⟨S40000, .f32⟩
  | .hbm, ⟨29, _⟩ => ⟨S40000x1, .f32⟩
  | .hbm, ⟨30, _⟩ => ⟨S40000, .f32⟩
  | .hbm, ⟨31, _⟩ => ⟨S40000x1, .f32⟩
  | .hbm, ⟨32, _⟩ => ⟨S40000x128, .f32⟩
  | .hbm, ⟨33, _⟩ => ⟨S40000x128, .f32⟩
  | .hbm, ⟨34, _⟩ => ⟨S_, .f32⟩
  | .hbm, ⟨35, _⟩ => ⟨S40000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S40000x128, .f32⟩
  | .hbm, ⟨54, _⟩ => ⟨S40000x128, .f32⟩
  | .hbm, ⟨55, _⟩ => ⟨S40000x128, .f32⟩
  | .hbm, ⟨56, _⟩ => ⟨S40000x256, .f32⟩
  | .hbm, ⟨57, _⟩ => ⟨S1x256, .f32⟩
  | .hbm, ⟨58, _⟩ => ⟨S40000x256, .f32⟩
  | .hbm, ⟨59, _⟩ => ⟨S40000x256, .f32⟩
  | .hbm, ⟨60, _⟩ => ⟨S_, .f32⟩
  | .hbm, ⟨61, _⟩ => ⟨S_, .f32⟩
  | .hbm, ⟨62, _⟩ => ⟨S40000x256, .f32⟩
  | .hbm, ⟨63, _⟩ => ⟨S40000x256, .i1⟩
  | .hbm, ⟨64, _⟩ => ⟨S_, .f32⟩
  | .hbm, ⟨65, _⟩ => ⟨S40000x256, .f32⟩
  | .hbm, ⟨66, _⟩ => ⟨S40000x256, .f32⟩
  | .hbm, ⟨67, _⟩ => ⟨S40000x256, .f32⟩
  | .hbm, ⟨68, _⟩ => ⟨S40000x256, .f32⟩
  | .hbm, ⟨69, _⟩ => ⟨S40000x256, .f32⟩
  | .hbm, ⟨70, _⟩ => ⟨S_, .f32⟩
  | .hbm, ⟨71, _⟩ => ⟨S40000x256, .f32⟩
  | .hbm, ⟨72, _⟩ => ⟨S_, .i32⟩
  | .hbm, ⟨73, _⟩ => ⟨S640000, .i32⟩
  | .hbm, ⟨74, _⟩ => ⟨S640000, .i1⟩
  | .hbm, ⟨75, _⟩ => ⟨S_, .i32⟩
  | .hbm, ⟨76, _⟩ => ⟨S640000, .i32⟩
  | .hbm, ⟨77, _⟩ => ⟨S640000, .i32⟩
  | .hbm, ⟨78, _⟩ => ⟨S640000, .i32⟩
  | .hbm, ⟨79, _⟩ => ⟨S640000x1, .i32⟩
  | .hbm, ⟨80, _⟩ => ⟨S640000x256, .f32⟩
  | .hbm, ⟨81, _⟩ => ⟨S_, .i32⟩
  | .hbm, ⟨82, _⟩ => ⟨S640000, .i32⟩
  | .hbm, ⟨83, _⟩ => ⟨S640000, .i1⟩
  | .hbm, ⟨84, _⟩ => ⟨S_, .i32⟩
  | .hbm, ⟨85, _⟩ => ⟨S640000, .i32⟩
  | .hbm, ⟨86, _⟩ => ⟨S640000, .i32⟩
  | .hbm, ⟨87, _⟩ => ⟨S640000, .i32⟩
  | .hbm, ⟨88, _⟩ => ⟨S640000x1, .i32⟩
  | .hbm, ⟨89, _⟩ => ⟨S40000x256, .f32⟩
  | .hbm, ⟨90, _⟩ => ⟨S40000x256, .f32⟩
  | .hbm, ⟨91, _⟩ => ⟨S40000x256, .f32⟩
  | .hbm, ⟨92, _⟩ => ⟨S40000x256, .f32⟩
  | .hbm, ⟨93, _⟩ => ⟨S1x256, .f32⟩
  | .hbm, ⟨94, _⟩ => ⟨S40000x256, .f32⟩
  | .hbm, ⟨95, _⟩ => ⟨S40000x256, .f32⟩
  | .hbm, ⟨96, _⟩ => ⟨S_, .f32⟩
  | .hbm, ⟨97, _⟩ => ⟨S_, .f32⟩
  | .hbm, ⟨98, _⟩ => ⟨S40000x256, .f32⟩
  | .hbm, ⟨99, _⟩ => ⟨S40000x256, .i1⟩
  | .hbm, ⟨100, _⟩ => ⟨S_, .f32⟩
  | .hbm, ⟨101, _⟩ => ⟨S40000x256, .f32⟩
  | .hbm, ⟨102, _⟩ => ⟨S40000x256, .f32⟩
  | .hbm, ⟨103, _⟩ => ⟨S40000x256, .f32⟩
  | .hbm, ⟨104, _⟩ => ⟨S_, .f32⟩
  | .hbm, ⟨105, _⟩ => ⟨S128x256, .f32⟩
  | .hbm, ⟨106, _⟩ => ⟨S40000x1, .i32⟩
  | .hbm, ⟨107, _⟩ => ⟨S128x256, .f32⟩
  | .hbm, ⟨108, _⟩ => ⟨S_, .f32⟩
  | .hbm, ⟨109, _⟩ => ⟨S40000, .f32⟩
  | .hbm, ⟨110, _⟩ => ⟨S_, .f32⟩
  | .hbm, ⟨111, _⟩ => ⟨S128, .f32⟩
  | .hbm, ⟨112, _⟩ => ⟨S40000x1, .i32⟩
  | .hbm, ⟨113, _⟩ => ⟨S128, .f32⟩
  | .hbm, ⟨114, _⟩ => ⟨S_, .f32⟩
  | .hbm, ⟨115, _⟩ => ⟨S_, .f32⟩
  | .hbm, ⟨116, _⟩ => ⟨S128, .f32⟩
  | .hbm, ⟨117, _⟩ => ⟨S128, .f32⟩
  | .hbm, ⟨118, _⟩ => ⟨S128x1, .f32⟩
  | .hbm, ⟨119, _⟩ => ⟨S128x256, .f32⟩
  | .hbm, ⟨120, _⟩ => ⟨S128x256, .f32⟩
  | .hbm, ⟨121, _⟩ => ⟨S128x10, .f32⟩
  | .hbm, ⟨122, _⟩ => ⟨S1x10, .f32⟩
  | .hbm, ⟨123, _⟩ => ⟨S128x10, .f32⟩
  | .hbm, ⟨124, _⟩ => ⟨S128x10, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_c_10 : Ref sig .tc := ⟨.hbm, 72, rfl⟩
abbrev main_v40 : Ref sig .tc := ⟨.hbm, 73, rfl⟩
abbrev main_v41 : Ref sig .tc := ⟨.hbm, 74, rfl⟩
abbrev main_c_11 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_12 : Ref sig .tc := ⟨.hbm, 81, rfl⟩
abbrev main_v47 : Ref sig .tc := ⟨.hbm, 82, rfl⟩
abbrev main_v48 : Ref sig .tc := ⟨.hbm, 83, rfl⟩
abbrev main_c_13 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_14 : Ref sig .tc := ⟨.hbm, 96, rfl⟩
abbrev main_call3_cst : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v60 : Ref sig .tc := ⟨.hbm, 103, rfl⟩
abbrev main_cst_15 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_16 : Ref sig .tc := ⟨.hbm, 108, rfl⟩
abbrev main_v64 : Ref sig .tc := ⟨.hbm, 109, rfl⟩
abbrev main_cst_17 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_18 : Ref sig .tc := ⟨.hbm, 114, rfl⟩
abbrev main_call4_v0 : Ref sig .tc := ⟨.hbm, 115, rfl⟩
abbrev main_call4_v1 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S_S40000x128 : S_.BroadcastsInDim S40000x128 (![] : Fin 0 → Fin S40000x128.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S40000x256 : S_.BroadcastsInDim S40000x256 (![] : Fin 0 → Fin S40000x256.rank)
  bcast_S40000x1_S40000x256_0_1 : S40000x1.BroadcastsInDim S40000x256 (![0, 1] : Fin 2 → Fin S40000x256.rank)
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x256_S40000x256_1_0_0_1_n_n_wf : DotDims.WF S40000x128 S128x256 S40000x256 [1] [0] [0] [1] [] []
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S40000x256_S256x256_S40000x256_1_0_0_1_n_n_wf : DotDims.WF S40000x256 S256x256 S40000x256 [1] [0] [0] [1] [] []
  scatter_S128x256_S40000x1_S40000x256_1_0_0_1_wf : ScatterDims.WF S128x256 S40000x1 S40000x256 [1] [0] [0] 1
  scatter_S128_S40000x1_S40000_n_0_0_1_wf : ScatterDims.WF S128 S40000x1 S40000 [] [0] [0] 1
  dot_S128x256_S256x10_S128x10_1_0_0_1_n_n_wf : DotDims.WF S128x256 S256x10 S128x10 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def scatter_S128x256_S40000x1_S40000x256_1_0_0_1 : ScatterDims S128x256 S40000x1 S40000x256 where
  updateWindowDims := [1]
  insertedWindowDims := [0]
  scatterDimsToOperandDims := [0]
  indexVectorDim := 1
  wf := scatter_S128x256_S40000x1_S40000x256_1_0_0_1_wf
def scatter_S128_S40000x1_S40000_n_0_0_1 : ScatterDims S128 S40000x1 S40000 where
  updateWindowDims := []
  insertedWindowDims := [0]
  scatterDimsToOperandDims := [0]
  indexVectorDim := 1
  wf := scatter_S128_S40000x1_S40000_n_0_0_1_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

class Facts : Prop extends Facts₀ where

variable [Facts]
-- ==== Proof.KRun.lean ====
/-
  The idealized kernel's run with its result named: every weakly fair execution of @main terminates, the argument
  arrays end as launched, and the result buffer ends at the last segment boundary's contents `Gen.W12` — the fold of
  @main's host stretches and of what each of the three matmul regions' write-backs leave, from the launch memory.
  The run is the library's launch theorem for a list of host segments and kernel regions over the generated segments
  and proof data; only the post differs from the frame's: it also reads the result buffer off the last thread state.
-/
import proofs.«103749_j28406913696567_1_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    buffer ends at the last boundary's contents and every argument array as launched. -/
theorem run_value : θ_run defs (onTc (τ := τ) (main (F := F))) ⟨m, fun _ => 0, ρ⟩ (fun r => ∀ c : Dev nD,
      r.2.mem ((c.tc : Thread nD τ).loc main_v67) = W12 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v67 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.KValue

end
-- ==== Proof.KSpec.lean ====
/-
  The host stages the idealized kernel's program shares with the reference, spelt with the kernel program's own shape
  records and shape facts: the degree count, the degree norm column, an edge endpoint as an index column, the normalised
  neighbourhood aggregation at 128 and at 256 features, and the per-graph mean.
-/
import proofs.«103749_j28406913696567_1_alg».proof.KernelIdeal

noncomputable section

namespace Cert.KernelIdeal.Spec

open Idealize.ShloMosaic Cert.KernelIdeal
open Facts₀ Facts

variable {F : FTy → Type} [FloatOps F] [Facts]

/-- The contents of a buffer of shape `s` and element type `e`. -/
abbrev Arr (F : FTy → Type) (s : Shape) (e : EltTy) : Type := (⟨s, e⟩ : BufTy).Contents (Elt F)

/-- The number of edges with each node as the chosen endpoint: ones scattered and added into zeros. -/
def deg (idx : Arr F S640000 .i32) : Arr F S40000 .f32 :=
  Host.scatterAdd scatter_S40000_S640000x1_S640000_n_0_0_1
    (broadcastInDim S40000 ![] bcast_S_S40000 (constant S_ .f32 0x00000000#32))
    (broadcastInDim S640000x1 ![0] bcast_S640000_S640000x1_0 idx)
    (broadcastInDim S640000 ![] bcast_S_S640000 (constant S_ .f32 0x3F800000#32))

/-- The degree norm as a column: 1 / sqrt (max 1 deg). -/
def normCol (idx : Arr F S640000 .i32) : Arr F S40000x1 .f32 :=
  broadcastInDim S40000x1 ![0] bcast_S40000_S40000x1_0
    (Host.rsqrt (maximumf (broadcastInDim S40000 ![] bcast_S_S40000 (constant S_ .f32 0x3F800000#32)) (deg idx)))

/-- An edge endpoint as an index column, a negative one counted from the end. -/
def wrapIdx (idx : Arr F S640000 .i32) : Arr F S640000x1 .i32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 40000#32))) idx)

/-- Normalised neighbourhood aggregation of 128 features. -/
def agg128 (h : Arr F S40000x128 .f32) (cOut cIn : Arr F S40000x1 .f32) (src dst : Arr F S640000 .i32) :
    Arr F S40000x128 .f32 :=
  mulf
    (Host.scatterAdd scatter_S40000x128_S640000x1_S640000x128_1_0_0_1
      (broadcastInDim S40000x128 ![] bcast_S_S40000x128 (constant S_ .f32 0x00000000#32))
      (wrapIdx dst)
      (Host.gather gather_S40000x128_S640000x1_S640000x128_1_0_n_n_0_1_1128
        (mulf h (broadcastInDim S40000x128 ![0, 1] bcast_S40000x1_S40000x128_0_1 cOut)) (wrapIdx src)))
    (broadcastInDim S40000x128 ![0, 1] bcast_S40000x1_S40000x128_0_1 cIn)

/-- Normalised neighbourhood aggregation of 256 features. -/
def agg256 (h : Arr F S40000x256 .f32) (cOut cIn : Arr F S40000x1 .f32) (src dst : Arr F S640000 .i32) :
    Arr F S40000x256 .f32 :=
  mulf
    (Host.scatterAdd scatter_S40000x256_S640000x1_S640000x256_1_0_0_1
      (broadcastInDim S40000x256 ![] bcast_S_S40000x256 (constant S_ .f32 0x00000000#32))
      (wrapIdx dst)
      (Host.gather gather_S40000x256_S640000x1_S640000x256_1_0_n_n_0_1_1256
        (mulf h (broadcastInDim S40000x256 ![0, 1] bcast_S40000x1_S40000x256_0_1 cOut)) (wrapIdx src)))
    (broadcastInDim S40000x256 ![0, 1] bcast_S40000x1_S40000x256_0_1 cIn)

/-- Mean pooling per graph: the sum of a graph's node rows over max 1 (its node count). -/
def pool (h : Arr F S40000x256 .f32) (gid : Arr F S40000 .i32) : Arr F S128x256 .f32 :=
  Host.divf
    (Host.scatterAdd scatter_S128x256_S40000x1_S40000x256_1_0_0_1
      (broadcastInDim S128x256 ![] bcast_S_S128x256 (constant S_ .f32 0x00000000#32))
      (broadcastInDim S40000x1 ![0] bcast_S40000_S40000x1_0 gid) h)
    (broadcastInDim S128x256 ![0, 1] bcast_S128x1_S128x256_0_1
      (broadcastInDim S128x1 ![0] bcast_S128_S128x1_0
        (maximumf (broadcastInDim S128 ![] bcast_S_S128 (constant S_ .f32 0x3F800000#32))
          (Host.scatterAdd scatter_S128_S40000x1_S40000_n_0_0_1
            (broadcastInDim S128 ![] bcast_S_S128 (constant S_ .f32 0x00000000#32))
            (broadcastInDim S40000x1 ![0] bcast_S40000_S40000x1_0 gid)
            (broadcastInDim S40000 ![] bcast_S_S40000 (constant S_ .f32 0x3F800000#32))))))

end Cert.KernelIdeal.Spec

end
-- ==== Proof.KHost5a.lean ====
/-
  The idealized kernel's buffers when its first matmul region is entered, read off the five host stretches before it
  from the launch memory: the region's row-blocked operand is the normalised aggregation of the input features.
-/
import proofs.«103749_j28406913696567_1_alg».proof.Proof.Gen.KernelIdeal.Frame
import proofs.«103749_j28406913696567_1_alg».proof.Proof.KSpec
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.ShloMosaic.StableHlo Idealize.SL.Sem
open Cert.KernelIdeal Cert.KernelIdeal.Gen
open Cert.KernelIdeal.Spec (deg normCol wrapIdx agg128 agg256 pool)

variable (m : (ℓ : Loc nD τ sig) → Buf (Elt Ideal) ℓ) (ρ : Dev nD → PrngReg) (c : Dev nD)

set_option Elab.async false
set_option maxHeartbeats 4000000 in
/-- The first region's row-blocked operand: the normalised aggregation of the input features. -/
theorem W5_v31 : W5 m ρ c (Proc.devRef .tc main_v31) = agg128 (m ((c : Thread nD τ).loc main_arg0)) (normCol (m ((c : Thread nD τ).loc main_arg1))) (normCol (m ((c : Thread nD τ).loc main_arg2))) (m ((c : Thread nD τ).loc main_arg1)) (m ((c : Thread nD τ).loc main_arg2)) := by
  simp only [W5, W4, W3, W2, W1, hostOps0, hostOps0_1, hostOps0_2, hostOps0_3, hostOps0_4]
  after_results_simp
  rfl

end Cert.KernelIdeal.KValue

end
-- ==== Proof.KHost5b.lean ====
/-
  The idealized kernel's buffers when its first matmul region is entered, read off the five host stretches before it
  from the launch memory: the region's bias operand is the first bias vector reshaped to one row, and the two degree-norm
  columns the later aggregation reads are as the reference computes them.
-/
import proofs.«103749_j28406913696567_1_alg».proof.Proof.Gen.KernelIdeal.Frame
import proofs.«103749_j28406913696567_1_alg».proof.Proof.KSpec
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.ShloMosaic.StableHlo Idealize.SL.Sem
open Cert.KernelIdeal Cert.KernelIdeal.Gen
open Cert.KernelIdeal.Spec (deg normCol wrapIdx agg128 agg256 pool)

variable (m : (ℓ : Loc nD τ sig) → Buf (Elt Ideal) ℓ) (ρ : Dev nD → PrngReg) (c : Dev nD)

set_option Elab.async false
set_option maxHeartbeats 4000000 in
/-- The first region's bias operand: the first bias vector as one row. -/
theorem W5_v32 : W5 m ρ c (Proc.devRef .tc main_v32) = (shapeCast S1x256 ((m ((c : Thread nD τ).loc main_arg5)) : S256.Idx → EReal) shapeCasts_S256_S1x256 : S1x256.Idx → EReal) := by
  simp only [W5, W4, W3, W2, W1, hostOps0, hostOps0_1, hostOps0_2, hostOps0_3, hostOps0_4]
  after_results_simp
  rfl

set_option maxHeartbeats 4000000 in
/-- The out-degree norm column. -/
theorem W5_v10 : W5 m ρ c (Proc.devRef .tc main_v10) = normCol (m ((c : Thread nD τ).loc main_arg1)) := by
  simp only [W5, W4, W3, W2, W1, hostOps0, hostOps0_1, hostOps0_2, hostOps0_3, hostOps0_4]
  after_results_simp
  rfl

set_option maxHeartbeats 4000000 in
/-- The in-degree norm column. -/
theorem W5_v12 : W5 m ρ c (Proc.devRef .tc main_v12) = normCol (m ((c : Thread nD τ).loc main_arg2)) := by
  simp only [W5, W4, W3, W2, W1, hostOps0, hostOps0_1, hostOps0_2, hostOps0_3, hostOps0_4]
  after_results_simp
  rfl

end Cert.KernelIdeal.KValue

end
-- ==== Proof.KHost5c.lean ====
/-
  The idealized kernel's buffers when its first matmul region is entered, read off the five host stretches before it
  from the launch memory: the argument arrays the regions and the later stretches read are as launched.
-/
import proofs.«103749_j28406913696567_1_alg».proof.Proof.Gen.KernelIdeal.Frame
import proofs.«103749_j28406913696567_1_alg».proof.Proof.KSpec
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.ShloMosaic.StableHlo Idealize.SL.Sem
open Cert.KernelIdeal Cert.KernelIdeal.Gen
open Cert.KernelIdeal.Spec (deg normCol wrapIdx agg128 agg256 pool)

variable (m : (ℓ : Loc nD τ sig) → Buf (Elt Ideal) ℓ) (ρ : Dev nD → PrngReg) (c : Dev nD)

/-- A buffer that none of a stretch's operations writes keeps its contents through the stretch. -/
macro "kept_through " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- Argument 1 is as launched: none of the five stretches writes it. -/
theorem W5_arg1 : W5 m ρ c (Proc.devRef .tc main_arg1) = (m ((c : Thread nD τ).loc main_arg1)) :=
  calc W5 m ρ c (Proc.devRef .tc main_arg1)
    _ = W4 m ρ c (Proc.devRef .tc main_arg1) := by kept_through hostOps0_4
    _ = W3 m ρ c (Proc.devRef .tc main_arg1) := by kept_through hostOps0_3
    _ = W2 m ρ c (Proc.devRef .tc main_arg1) := by kept_through hostOps0_2
    _ = W1 m ρ c (Proc.devRef .tc main_arg1) := by kept_through hostOps0_1
    _ = W0 m ρ c (Proc.devRef .tc main_arg1) := by kept_through hostOps0
    _ = (m ((c : Thread nD τ).loc main_arg1)) := rfl

/-- Argument 2 is as launched: none of the five stretches writes it. -/
theorem W5_arg2 : W5 m ρ c (Proc.devRef .tc main_arg2) = (m ((c : Thread nD τ).loc main_arg2)) :=
  calc W5 m ρ c (Proc.devRef .tc main_arg2)
    _ = W4 m ρ c (Proc.devRef .tc main_arg2) := by kept_through hostOps0_4
    _ = W3 m ρ c (Proc.devRef .tc main_arg2) := by kept_through hostOps0_3
    _ = W2 m ρ c (Proc.devRef .tc main_arg2) := by kept_through hostOps0_2
    _ = W1 m ρ c (Proc.devRef .tc main_arg2) := by kept_through hostOps0_1
    _ = W0 m ρ c (Proc.devRef .tc main_arg2) := by kept_through hostOps0
    _ = (m ((c : Thread nD τ).loc main_arg2)) := rfl

/-- Argument 3 is as launched: none of the five stretches writes it. -/
theorem W5_arg3 : W5 m ρ c (Proc.devRef .tc main_arg3) = (m ((c : Thread nD τ).loc main_arg3)) :=
  calc W5 m ρ c (Proc.devRef .tc main_arg3)
    _ = W4 m ρ c (Proc.devRef .tc main_arg3) := by kept_through hostOps0_4
    _ = W3 m ρ c (Proc.devRef .tc main_arg3) := by kept_through hostOps0_3
    _ = W2 m ρ c (Proc.devRef .tc main_arg3) := by kept_through hostOps0_2
    _ = W1 m ρ c (Proc.devRef .tc main_arg3) := by kept_through hostOps0_1
    _ = W0 m ρ c (Proc.devRef .tc main_arg3) := by kept_through hostOps0
    _ = (m ((c : Thread nD τ).loc main_arg3)) := rfl

/-- Argument 4 is as launched: none of the five stretches writes it. -/
theorem W5_arg4 : W5 m ρ c (Proc.devRef .tc main_arg4) = (m ((c : Thread nD τ).loc main_arg4)) :=
  calc W5 m ρ c (Proc.devRef .tc main_arg4)
    _ = W4 m ρ c (Proc.devRef .tc main_arg4) := by kept_through hostOps0_4
    _ = W3 m ρ c (Proc.devRef .tc main_arg4) := by kept_through hostOps0_3
    _ = W2 m ρ c (Proc.devRef .tc main_arg4) := by kept_through hostOps0_2
    _ = W1 m ρ c (Proc.devRef .tc main_arg4) := by kept_through hostOps0_1
    _ = W0 m ρ c (Proc.devRef .tc main_arg4) := by kept_through hostOps0
    _ = (m ((c : Thread nD τ).loc main_arg4)) := rfl

/-- Argument 6 is as launched: none of the five stretches writes it. -/
theorem W5_arg6 : W5 m ρ c (Proc.devRef .tc main_arg6) = (m ((c : Thread nD τ).loc main_arg6)) :=
  calc W5 m ρ c (Proc.devRef .tc main_arg6)
    _ = W4 m ρ c (Proc.devRef .tc main_arg6) := by kept_through hostOps0_4
    _ = W3 m ρ c (Proc.devRef .tc main_arg6) := by kept_through hostOps0_3
    _ = W2 m ρ c (Proc.devRef .tc main_arg6) := by kept_through hostOps0_2
    _ = W1 m ρ c (Proc.devRef .tc main_arg6) := by kept_through hostOps0_1
    _ = W0 m ρ c (Proc.devRef .tc main_arg6) := by kept_through hostOps0
    _ = (m ((c : Thread nD τ).loc main_arg6)) := rfl

/-- Argument 7 is as launched: none of the five stretches writes it. -/
theorem W5_arg7 : W5 m ρ c (Proc.devRef .tc main_arg7) = (m ((c : Thread nD τ).loc main_arg7)) :=
  calc W5 m ρ c (Proc.devRef .tc main_arg7)
    _ = W4 m ρ c (Proc.devRef .tc main_arg7) := by kept_through hostOps0_4
    _ = W3 m ρ c (Proc.devRef .tc main_arg7) := by kept_through hostOps0_3
    _ = W2 m ρ c (Proc.devRef .tc main_arg7) := by kept_through hostOps0_2
    _ = W1 m ρ c (Proc.devRef .tc main_arg7) := by kept_through hostOps0_1
    _ = W0 m ρ c (Proc.devRef .tc main_arg7) := by kept_through hostOps0
    _ = (m ((c : Thread nD τ).loc main_arg7)) := rfl

/-- Argument 8 is as launched: none of the five stretches writes it. -/
theorem W5_arg8 : W5 m ρ c (Proc.devRef .tc main_arg8) = (m ((c : Thread nD τ).loc main_arg8)) :=
  calc W5 m ρ c (Proc.devRef .tc main_arg8)
    _ = W4 m ρ c (Proc.devRef .tc main_arg8) := by kept_through hostOps0_4
    _ = W3 m ρ c (Proc.devRef .tc main_arg8) := by kept_through hostOps0_3
    _ = W2 m ρ c (Proc.devRef .tc main_arg8) := by kept_through hostOps0_2
    _ = W1 m ρ c (Proc.devRef .tc main_arg8) := by kept_through hostOps0_1
    _ = W0 m ρ c (Proc.devRef .tc main_arg8) := by kept_through hostOps0
    _ = (m ((c : Thread nD τ).loc main_arg8)) := rfl

/-- Argument 9 is as launched: none of the five stretches writes it. -/
theorem W5_arg9 : W5 m ρ c (Proc.devRef .tc main_arg9) = (m ((c : Thread nD τ).loc main_arg9)) :=
  calc W5 m ρ c (Proc.devRef .tc main_arg9)
    _ = W4 m ρ c (Proc.devRef .tc main_arg9) := by kept_through hostOps0_4
    _ = W3 m ρ c (Proc.devRef .tc main_arg9) := by kept_through hostOps0_3
    _ = W2 m ρ c (Proc.devRef .tc main_arg9) := by kept_through hostOps0_2
    _ = W1 m ρ c (Proc.devRef .tc main_arg9) := by kept_through hostOps0_1
    _ = W0 m ρ c (Proc.devRef .tc main_arg9) := by kept_through hostOps0
    _ = (m ((c : Thread nD τ).loc main_arg9)) := rfl

end Cert.KernelIdeal.KValue

end
-- ==== Proof.KHost7.lean ====
/-
  The idealized kernel's buffers when its second matmul region is entered, read off the host stretch between the first
  two regions from what the first region leaves: the row-blocked operand is the normalised aggregation of the first
  region's result, the bias operand the second bias vector reshaped to one row; the arguments are as the stretch found them.
-/
import proofs.«103749_j28406913696567_1_alg».proof.Proof.Gen.KernelIdeal.Frame
import proofs.«103749_j28406913696567_1_alg».proof.Proof.KSpec
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.ShloMosaic.StableHlo Idealize.SL.Sem
open Cert.KernelIdeal Cert.KernelIdeal.Gen
open Cert.KernelIdeal.Spec (deg normCol wrapIdx agg128 agg256 pool)

variable (m : (ℓ : Loc nD τ sig) → Buf (Elt Ideal) ℓ) (ρ : Dev nD → PrngReg) (c : Dev nD)

set_option maxHeartbeats 4000000 in
/-- The second region's row-blocked operand: the normalised aggregation of the first region's result. -/
theorem W7_v52 : W7 m ρ c (Proc.devRef .tc main_v52) = agg256 (W6 m ρ c (Proc.devRef .tc main_v33)) (W6 m ρ c (Proc.devRef .tc main_v10)) (W6 m ρ c (Proc.devRef .tc main_v12)) (W6 m ρ c (Proc.devRef .tc main_arg1)) (W6 m ρ c (Proc.devRef .tc main_arg2)) := by
  simp only [W7, hostOps1]
  after_results_simp
  rfl

set_option maxHeartbeats 4000000 in
/-- The second region's bias operand: the second bias vector as one row. -/
theorem W7_v53 : W7 m ρ c (Proc.devRef .tc main_v53) = (shapeCast S1x256 ((W6 m ρ c (Proc.devRef .tc main_arg7)) : S256.Idx → EReal) shapeCasts_S256_S1x256 : S1x256.Idx → EReal) := by
  simp only [W7, hostOps1]
  after_results_simp
  rfl

set_option maxHeartbeats 4000000 in
/-- Argument 3 is as the stretch found it. -/
theorem W7_arg3 : W7 m ρ c (Proc.devRef .tc main_arg3) = (W6 m ρ c (Proc.devRef .tc main_arg3)) := by
  simp only [W7, hostOps1]
  after_results_simp

set_option maxHeartbeats 4000000 in
/-- Argument 6 is as the stretch found it. -/
theorem W7_arg6 : W7 m ρ c (Proc.devRef .tc main_arg6) = (W6 m ρ c (Proc.devRef .tc main_arg6)) := by
  simp only [W7, hostOps1]
  after_results_simp

set_option maxHeartbeats 4000000 in
/-- Argument 8 is as the stretch found it. -/
theorem W7_arg8 : W7 m ρ c (Proc.devRef .tc main_arg8) = (W6 m ρ c (Proc.devRef .tc main_arg8)) := by
  simp only [W7, hostOps1]
  after_results_simp

set_option maxHeartbeats 4000000 in
/-- Argument 9 is as the stretch found it. -/
theorem W7_arg9 : W7 m ρ c (Proc.devRef .tc main_arg9) = (W6 m ρ c (Proc.devRef .tc main_arg9)) := by
  simp only [W7, hostOps1]
  after_results_simp

end Cert.KernelIdeal.KValue

end
-- ==== Proof.KHost11.lean ====
/-
  The idealized kernel's buffers when its last matmul region is entered, read off the three host stretches between the
  last two regions from what the second region leaves: the row operand is the per-graph mean of the second region's
  result, the bias operand the head's bias vector reshaped to one row; the head's weights are as the stretches found them.
-/
import proofs.«103749_j28406913696567_1_alg».proof.Proof.Gen.KernelIdeal.Frame
import proofs.«103749_j28406913696567_1_alg».proof.Proof.KSpec
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.ShloMosaic.StableHlo Idealize.SL.Sem
open Cert.KernelIdeal Cert.KernelIdeal.Gen
open Cert.KernelIdeal.Spec (deg normCol wrapIdx agg128 agg256 pool)

variable (m : (ℓ : Loc nD τ sig) → Buf (Elt Ideal) ℓ) (ρ : Dev nD → PrngReg) (c : Dev nD)

set_option maxHeartbeats 4000000 in
/-- The last region's row operand: the per-graph mean of the second region's result. -/
theorem W11_v65 : W11 m ρ c (Proc.devRef .tc main_v65) = pool (W8 m ρ c (Proc.devRef .tc main_v54)) (W8 m ρ c (Proc.devRef .tc main_arg3)) := by
  simp only [W11, W10, W9, hostOps2, hostOps2_1, hostOps2_2]
  after_results_simp
  rfl

set_option maxHeartbeats 4000000 in
/-- The last region's bias operand: the head's bias vector as one row. -/
theorem W11_v66 : W11 m ρ c (Proc.devRef .tc main_v66) = (shapeCast S1x10 ((W8 m ρ c (Proc.devRef .tc main_arg9)) : S10.Idx → EReal) shapeCasts_S10_S1x10 : S1x10.Idx → EReal) := by
  simp only [W11, W10, W9, hostOps2, hostOps2_1, hostOps2_2]
  after_results_simp
  rfl

set_option maxHeartbeats 4000000 in
/-- The head's weights are as the stretches found them. -/
theorem W11_arg8 : W11 m ρ c (Proc.devRef .tc main_arg8) = (W8 m ρ c (Proc.devRef .tc main_arg8)) := by
  simp only [W11, W10, W9, hostOps2, hostOps2_1, hostOps2_2]
  after_results_simp

end Cert.KernelIdeal.KValue

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.Dense.lean ====
/-
  One dense layer of the network at an index, over the extended reals: the affine part
  `(∑ k, a (p, k) * w (k, q)) + b q` and the leaky rectifier with slope f32 (0.01), in the two spellings the
  programs use — `z` where `z > 0`, else `z * slope`; and `z` where `z ≥ 0`, else `slope * z`. The two
  agree at every extended real: they can differ only at `z = 0`, where both are `0`, and the product commutes.
-/
import Idealize.ShloMosaic.PureOps.Ideal
import Idealize.ShloMosaic.PureOps.Ideal.Laws
import Idealize.ShloMosaic.Lib.ValueIdx

noncomputable section

namespace Cert.Dense

open Idealize.ShloMosaic Idealize.ShloMosaic.ValueIdx

/-- The slope of the leaky rectifier: the f32 nearest 0.01, read exactly. -/
def slope : EReal := Ideal.ofBits .f32 0x3C23D70A#32

/-- The leaky rectifier as the reference spells it: `z` where `0 ≤ z`, else `slope * z`. -/
def leaky (z : EReal) : EReal := if 0 ≤ z then z else slope * z

/-- The kernel's spelling — `z` where `0 < z`, else `z * slope` — is the same function. -/
theorem leaky_of_gt (z : EReal) : (if 0 < z then z else z * slope) = leaky z := by
  unfold leaky
  by_cases h : 0 < z
  · rw [if_pos h, if_pos h.le]
  · rw [if_neg h]
    by_cases h0 : 0 ≤ z
    · have hz : z = 0 := le_antisymm (not_lt.mp h) h0
      rw [if_pos h0, hz, zero_mul]
    · rw [if_neg h0, mul_comm]

/-- A select on a one-bit word made from a proposition is the corresponding `if`. -/
theorem select_ofBool {α : Type} (P : Prop) [Decidable P] (a b : α) :
    Scalar.select (BitVec.ofBool (decide P)) a b = if P then a else b := by
  by_cases h : P
  · simp [h, Scalar.select]
  · simp [h, Scalar.select]

/-- The kernel's rectifier at an element: compare `z > 0`, multiply by the slope on the right, select. -/
theorem select_ogt (z : EReal) :
    Scalar.select (FloatOps.cmpf (F := Ideal) (φ := .f32) .ogt z (Scalar.ofBits .f32 0x00000000#32)) z
        (FloatOps.mulf (F := Ideal) (φ := .f32) z (Scalar.ofBits .f32 0x3C23D70A#32))
      = leaky z := by
  have h0 : (Scalar.ofBits (F := Ideal) .f32 0x00000000#32 : EReal) = 0 := Ideal.ofBits_zero_f32
  show Scalar.select (Ideal.cmp .ogt z (Scalar.ofBits (F := Ideal) .f32 0x00000000#32)) z (z * slope) = _
  rw [h0]
  show Scalar.select (BitVec.ofBool (decide (0 < z))) z (z * slope) = _
  rw [select_ofBool]
  exact leaky_of_gt z

/-- The reference's rectifier at an element: compare `z ≥ 0`, multiply by the slope on the left, select. -/
theorem select_oge (z : EReal) :
    Scalar.select (FloatOps.cmpf (F := Ideal) (φ := .f32) .oge z (Ideal.ofBits .f32 0x00000000#32)) z
        (FloatOps.mulf (F := Ideal) (φ := .f32) (Ideal.ofBits .f32 0x3C23D70A#32) z)
      = leaky z := by
  show Scalar.select (Ideal.cmp .oge z (Ideal.ofBits .f32 0x00000000#32)) z (slope * z) = _
  rw [Ideal.ofBits_zero_f32]
  show Scalar.select (BitVec.ofBool (decide (0 ≤ z))) z (slope * z) = _
  rw [select_ofBool]
  rfl

end Cert.Dense

end
-- ==== Proof.KPay.lean ====
/-
  The three matmul bodies' stored values read at an index, over the extended reals: at `(p, q)` of a body's output
  block, the leaky rectifier (bodies 0 and 1) of `(∑ k, a (p, k) * w (k, q)) + b (0, q)` over the loaded blocks — the
  roundings to bf16 on the way into the matrix unit are the identity here, the accumulator is the zero splat, and the
  bias block's one row is broadcast over the rows.
-/
import proofs.«103749_j28406913696567_1_alg».proof.Proof.Gen.KernelIdeal.Skeleton
import proofs.«103749_j28406913696567_1_alg».proof.Proof.LibPlainDot
import proofs.«103749_j28406913696567_1_alg».proof.Proof.Dense
import Idealize.ShloMosaic.Lib.Pipeline.Value
import Idealize.ShloMosaic.Lib.ValueLayout

noncomputable section

namespace Cert.KernelIdeal.KValue

open Idealize.ShloMosaic Idealize.ShloMosaic.ValueIdx Cert.KernelIdeal Cert.KernelIdeal.Gen Cert.Dense

/-- Body 0 at `(p, q)` of its block: the rectified affine form of the loaded blocks. -/
theorem pay0_apply (x0 : Vec Ideal S4000x128 .f32) (x1 : Vec Ideal S128x256 .f32) (x2 : Vec Ideal S1x256 .f32)
    (p : Fin 4000) (q : Fin 256) :
    k0_pay1 x0 x1 x2 (ix2 p q) = leaky ((∑ k : Fin 128, x0 (ix2 p k) * x1 (ix2 k q)) + x2 (ix2 (0 : Fin 1) q)) := by
  have hA : matmul (F := Ideal) dot_S4000x128_S128x256_S4000x256_1_0_0_1_n_n none
      (truncf .bf16 (shapeCast S4000x128 x0 shapeCasts_S4000x128_S4000x128) bitsLt_bf16_f32) (truncf .bf16 x1 bitsLt_bf16_f32)
      (constant S4000x256 .f32 0x00000000#32) (ix2 p q) = ∑ k : Fin 128, x0 (ix2 p k) * x1 (ix2 k q) := by
    rw [shapeCast_self]
    exact PlainDot.matmul_zero_apply _ rfl none _ _ p q
  have hB : broadcastTo S4000x256 (shapeCast S1x256 x2 shapeCasts_S1x256_S1x256) broadcasts_S1x256_S4000x256 (ix2 p q)
      = x2 (ix2 (0 : Fin 1) q) := by
    rw [shapeCast_self]
    exact broadcastTo_1b_ab_apply x2 _ p q
  unfold k0_pay1
  simp only [select_apply, cmpf_apply, mulf_apply, broadcast_apply, addf_apply]
  rw [hA, hB]
  exact select_ogt _

/-- Body 1 at `(p, q)` of its block: the rectified affine form of the loaded blocks. -/
theorem pay1_apply (x0 : Vec Ideal S4000x256 .f32) (x1 : Vec Ideal S256x256 .f32) (x2 : Vec Ideal S1x256 .f32)
    (p : Fin 4000) (q : Fin 256) :
    k1_pay1 x0 x1 x2 (ix2 p q) = leaky ((∑ k : Fin 256, x0 (ix2 p k) * x1 (ix2 k q)) + x2 (ix2 (0 : Fin 1) q)) := by
  have hA : matmul (F := Ideal) dot_S4000x256_S256x256_S4000x256_1_0_0_1_n_n none
      (truncf .bf16 (shapeCast S4000x256 x0 shapeCasts_S4000x256_S4000x256) bitsLt_bf16_f32) (truncf .bf16 x1 bitsLt_bf16_f32)
      (constant S4000x256 .f32 0x00000000#32) (ix2 p q) = ∑ k : Fin 256, x0 (ix2 p k) * x1 (ix2 k q) := by
    rw [shapeCast_self]
    exact PlainDot.matmul_zero_apply _ rfl none _ _ p q
  have hB : broadcastTo S4000x256 (shapeCast S1x256 x2 shapeCasts_S1x256_S1x256) broadcasts_S1x256_S4000x256 (ix2 p q)
      = x2 (ix2 (0 : Fin 1) q) := by
    rw [shapeCast_self]
    exact broadcastTo_1b_ab_apply x2 _ p q
  unfold k1_pay1
  simp only [select_apply, cmpf_apply, mulf_apply, broadcast_apply, addf_apply]
  rw [hA, hB]
  exact select_ogt _

/-- Body 2 at `(p, q)` of its block: the affine form of the loaded blocks. -/
theorem pay2_apply (x0 : Vec Ideal S128x256 .f32) (x1 : Vec Ideal S256x10 .f32) (x2 : Vec Ideal S1x10 .f32)
    (p : Fin 128) (q : Fin 10) :
    k2_pay1 x0 x1 x2 (ix2 p q) = (∑ k : Fin 256, x0 (ix2 p k) * x1 (ix2 k q)) + x2 (ix2 (0 : Fin 1) q) := by
  have hA : matmul (F := Ideal) dot_S128x256_S256x10_S128x10_1_0_0_1_n_n none
      (truncf .bf16 (shapeCast S128x256 x0 shapeCasts_S128x256_S128x256) bitsLt_bf16_f32) (truncf .bf16 x1 bitsLt_bf16_f32)
      (constant S128x10 .f32 0x00000000#32) (ix2 p q) = ∑ k : Fin 256, x0 (ix2 p k) * x1 (ix2 k q) := by
    rw [shapeCast_self]
    exact PlainDot.matmul_zero_apply _ rfl none _ _ p q
  have hB : broadcastTo S128x10 (shapeCast S1x10 x2 shapeCasts_S1x10_S1x10) broadcasts_S1x10_S128x10 (ix2 p q)
      = x2 (ix2 (0 : Fin 1) q) := by
    rw [shapeCast_self]
    exact broadcastTo_1b_ab_apply x2 _ p q
  unfold k2_pay1
  simp only [addf_apply]
  rw [hA, hB]

end Cert.KernelIdeal.KValue

end
-- ==== Proof.KRegion0.lean ====
/-
  Matmul region 0 as one function of its operand arrays: whatever the region finds in its three operand arrays when it
  is entered, its result array ends holding, at `(p, q)`, the leaky rectifier of `(∑ k, a (p, k) * w (k, q)) + b (0, q)`.
  Grid point `t` stages rows `4000·t … 4000·t + 3999` of `a`, all of `w` and `b`, and writes back the same rows of the
  result; the 10 row blocks tile the result array.
-/
import proofs.«103749_j28406913696567_1_alg».proof.Proof.Gen.KernelIdeal.Frame
import proofs.«103749_j28406913696567_1_alg».proof.Proof.KPay
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.Dense

variable (V : (c : Dev nD) → (b : Ref sig .tc) → Buf (Elt Ideal) ((c : Thread nD τ).loc b))

theorem hz0 : (![0, 0] : Fin 2 → Nat) = fun _ => 0 := funext fun a => by fin_cases a <;> rfl

/-- The result at row `p`, column `q`. -/
def cell0 (a : S40000x128.Idx → EReal) (w : S128x256.Idx → EReal) (b : S1x256.Idx → EReal) (p : Fin 40000) (q : Fin 256) : EReal :=
  leaky ((∑ k : Fin 128, a (ix2 p k) * w (ix2 k q)) + b (ix2 (0 : Fin 1) q))

/-- The region's result array as one function of its operand arrays. -/
def G0 (a : S40000x128.Idx → EReal) (w : S128x256.Idx → EReal) (b : S1x256.Idx → EReal) : S40000x256.Idx → EReal :=
  fun i => cell0 a w b ⟨(i 0).val, idx2_lt0 i⟩ ⟨(i 1).val, idx2_lt1 i⟩

theorem G0_ix2 (a : S40000x128.Idx → EReal) (w : S128x256.Idx → EReal) (b : S1x256.Idx → EReal) (p : Fin 40000) (q : Fin 256) :
    G0 a w b (ix2 p q) = cell0 a w b p q := rfl

/-- The printed index maps over the grid: the row-blocked windows sit at block row `t`, every other block index is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row-blocked operand's block at point `t`: rows `4000·t + …` of the array. -/
theorem iblk0_0_apply (c : Dev nD) (t : Fin cfg0.N) (x : S4000x128.Idx) (k : S40000x128.Idx)
    (hk0 : (k 0).val = t.val * 4000 + (x 0).val) (hk1 : (k 1).val = (x 1).val) :
    (iblk0 V c 0 t : Vec Ideal S4000x128 .f32) x = (V c main_v31 : S40000x128.Idx → EReal) k := by
  obtain ⟨e0, e1, -⟩ := idx_facts0 t
  unfold iblk0
  rw [View.read_apply]
  show V c main_v31 _ = V c main_v31 _
  refine congrArg _ (funext fun a => Fin.ext ?_)
  match a with
  | ⟨0, _⟩ => show win0_0.index t (0 : Fin 2) * 4000 + 1 * (x 0).val = (k 0).val; rw [e0, hk0]; omega
  | ⟨1, _⟩ => show win0_0.index t (1 : Fin 2) * 128 + 1 * (x 1).val = (k 1).val; rw [e1, hk1]; omega

/-- The weight window's one block is the whole array. -/
theorem iblk0_1_apply (c : Dev nD) (t : Fin cfg0.N) (x : S128x256.Idx) :
    (iblk0 V c 1 t : Vec Ideal S128x256 .f32) x = (V c main_arg4 : S128x256.Idx → EReal) x := by
  obtain ⟨-, -, e0, e1, -⟩ := idx_facts0 t
  unfold iblk0
  rw [View.read_apply]
  show V c main_arg4 _ = V c main_arg4 _
  refine congrArg _ (funext fun a => Fin.ext ?_)
  match a with
  | ⟨0, _⟩ => show win0_1.index t (0 : Fin 2) * 128 + 1 * (x 0).val = (x 0).val; rw [e0]; omega
  | ⟨1, _⟩ => show win0_1.index t (1 : Fin 2) * 256 + 1 * (x 1).val = (x 1).val; rw [e1]; omega

/-- The bias window's one block is the whole one-row array. -/
theorem iblk0_2_apply (c : Dev nD) (t : Fin cfg0.N) (x : S1x256.Idx) :
    (iblk0 V c 2 t : Vec Ideal S1x256 .f32) x = (V c main_v32 : S1x256.Idx → EReal) x := by
  obtain ⟨-, -, -, -, e0, e1, -⟩ := idx_facts0 t
  unfold iblk0
  rw [View.read_apply]
  show V c main_v32 _ = V c main_v32 _
  refine congrArg _ (funext fun a => Fin.ext ?_)
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- What point `t` writes back is block `t` of `G0` of the operand arrays as the region finds them. -/
theorem flushed0_eq (c : Dev nD) (t : Fin cfg0.N) :
    (dat0 V c).flushed 3 t
      = ((cfg0.win 3).blk t).view.read (Elt Ideal) (G0 (V c main_v31) (V c main_arg4) (V c main_v32)) := by
  obtain ⟨-, -, -, -, -, -, e0, e1⟩ := idx_facts0 t
  show (cfg0.win 3).cut (grid0.coords t) ((dat0 V c).after 3 t) = _
  rw [after0_3]
  unfold out0_3
  rw [View.canon_unit_zero hz0]
  simp only [View.ld_unit_zero (S := S4000x128) hz0, View.ld_unit_zero (S := S128x256) hz0, View.ld_unit_zero (S := S1x256) hz0]
  funext y
  obtain ⟨p, q, rfl⟩ : ∃ (p : Fin 4000) (q : Fin 256), y = ix2 p q := ⟨y 0, y 1, eq_ix2 y⟩
  refine (pay0_apply (iblk0 V c 0 t) (iblk0 V c 1 t) (iblk0 V c 2 t) p q).trans ?_
  have hp : t.val * 4000 + p.val < 40000 := by have := t.isLt; have hN : cfg0.N = 10 := N_0; have := p.isLt; omega
  have hemb : ((cfg0.win 3).blk t).view.emb (ix2 p q) = (ix2 (⟨t.val * 4000 + p.val, hp⟩ : Fin 40000) q : S40000x256.Idx) := by
    funext a
    apply Fin.ext
    match a with
    | ⟨0, _⟩ => show win0_3.index t (0 : Fin 2) * 4000 + 1 * p.val = t.val * 4000 + p.val; rw [e0]; omega
    | ⟨1, _⟩ => show win0_3.index t (1 : Fin 2) * 256 + 1 * q.val = q.val; rw [e1]; omega
  rw [View.read_apply, hemb, G0_ix2]
  unfold cell0
  simp only [iblk0_1_apply V c t, iblk0_2_apply V c t]
  refine congrArg leaky ?_
  refine congrArg (· + _) (Finset.sum_congr rfl fun k _ => ?_)
  rw [iblk0_0_apply V c t (ix2 p k) (ix2 (⟨t.val * 4000 + p.val, hp⟩ : Fin 40000) k) rfl rfl]

/-- An index of the result array is in point `t`'s block iff each coordinate is in the block's range on its axis. -/
theorem mem_blk0 (t : Fin cfg0.N) (i : S40000x256.Idx) :
    i ∈ ((cfg0.win 3).blk t).view.set ↔ ∀ a : Fin 2, win0_3.index t a * S4000x256.size a ≤ (i a).val ∧ (i a).val < win0_3.index t a * S4000x256.size a + S4000x256.size a := by
  show i ∈ ((View.whole main_v33).slice (win0_3.rect t)).set ↔ _
  rw [View.set_slice_whole, Rect.mem_set_unit]
  exact Iff.rfl

/-- The result array after the region: `G0` of the operand arrays as found. -/
theorem final0 (c : Dev nD) :
    (dat0 V c).arrAt 3 cfg0.N = G0 (V c main_v31) (V c main_arg4) (V c main_v32) :=
  (dat0 V c).arrAt_eq_of_cover 3 _ (fun t _ => flushed0_eq V c t) fun i => by
    have hi0 : (i 0).val < 40000 := (i 0).isLt
    have hi1 : (i 1).val < 256 := (i 1).isLt
    have hN : cfg0.N = 10 := N_0
    refine ⟨⟨(i 0).val / 4000, by rw [hN]; omega⟩, flush0_3 _, ?_⟩
    obtain ⟨-, -, -, -, -, -, e0, e1⟩ := idx_facts0 ⟨(i 0).val / 4000, by rw [hN]; omega⟩
    rw [mem_blk0]
    intro a
    match a with
    | ⟨0, _⟩ => show win0_3.index _ (0 : Fin 2) * 4000 ≤ (i 0).val ∧ (i 0).val < win0_3.index _ (0 : Fin 2) * 4000 + 4000; rw [e0]; show (i 0).val / 4000 * 4000 ≤ (i 0).val ∧ (i 0).val < (i 0).val / 4000 * 4000 + 4000; omega
    | ⟨1, _⟩ => show win0_3.index _ (1 : Fin 2) * 256 ≤ (i 1).val ∧ (i 1).val < win0_3.index _ (1 : Fin 2) * 256 + 256; rw [e1]; omega

end Cert.KernelIdeal.KValue

end
-- ==== Proof.KRegion1.lean ====
/-
  Matmul region 1 as one function of its operand arrays: whatever the region finds in its three operand arrays when it
  is entered, its result array ends holding, at `(p, q)`, the leaky rectifier of `(∑ k, a (p, k) * w (k, q)) + b (0, q)`.
  Grid point `t` stages rows `4000·t … 4000·t + 3999` of `a`, all of `w` and `b`, and writes back the same rows of the
  result; the 10 row blocks tile the result array.
-/
import proofs.«103749_j28406913696567_1_alg».proof.Proof.Gen.KernelIdeal.Frame
import proofs.«103749_j28406913696567_1_alg».proof.Proof.KPay
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.Dense

variable (V : (c : Dev nD) → (b : Ref sig .tc) → Buf (Elt Ideal) ((c : Thread nD τ).loc b))

theorem hz1 : (![0, 0] : Fin 2 → Nat) = fun _ => 0 := funext fun a => by fin_cases a <;> rfl

/-- The result at row `p`, column `q`. -/
def cell1 (a : S40000x256.Idx → EReal) (w : S256x256.Idx → EReal) (b : S1x256.Idx → EReal) (p : Fin 40000) (q : Fin 256) : EReal :=
  leaky ((∑ k : Fin 256, a (ix2 p k) * w (ix2 k q)) + b (ix2 (0 : Fin 1) q))

/-- The region's result array as one function of its operand arrays. -/
def G1 (a : S40000x256.Idx → EReal) (w : S256x256.Idx → EReal) (b : S1x256.Idx → EReal) : S40000x256.Idx → EReal :=
  fun i => cell1 a w b ⟨(i 0).val, idx2_lt0 i⟩ ⟨(i 1).val, idx2_lt1 i⟩

theorem G1_ix2 (a : S40000x256.Idx → EReal) (w : S256x256.Idx → EReal) (b : S1x256.Idx → EReal) (p : Fin 40000) (q : Fin 256) :
    G1 a w b (ix2 p q) = cell1 a w b p q := rfl

/-- The printed index maps over the grid: the row-blocked windows sit at block row `t`, every other block index is 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row-blocked operand's block at point `t`: rows `4000·t + …` of the array. -/
theorem iblk1_0_apply (c : Dev nD) (t : Fin cfg1.N) (x : S4000x256.Idx) (k : S40000x256.Idx)
    (hk0 : (k 0).val = t.val * 4000 + (x 0).val) (hk1 : (k 1).val = (x 1).val) :
    (iblk1 V c 0 t : Vec Ideal S4000x256 .f32) x = (V c main_v52 : S40000x256.Idx → EReal) k := by
  obtain ⟨e0, e1, -⟩ := idx_facts1 t
  unfold iblk1
  rw [View.read_apply]
  show V c main_v52 _ = V c main_v52 _
  refine congrArg _ (funext fun a => Fin.ext ?_)
  match a with
  | ⟨0, _⟩ => show win1_0.index t (0 : Fin 2) * 4000 + 1 * (x 0).val = (k 0).val; rw [e0, hk0]; omega
  | ⟨1, _⟩ => show win1_0.index t (1 : Fin 2) * 256 + 1 * (x 1).val = (k 1).val; rw [e1, hk1]; omega

/-- The weight window's one block is the whole array. -/
theorem iblk1_1_apply (c : Dev nD) (t : Fin cfg1.N) (x : S256x256.Idx) :
    (iblk1 V c 1 t : Vec Ideal S256x256 .f32) x = (V c main_arg6 : S256x256.Idx → EReal) x := by
  obtain ⟨-, -, e0, e1, -⟩ := idx_facts1 t
  unfold iblk1
  rw [View.read_apply]
  show V c main_arg6 _ = V c main_arg6 _
  refine congrArg _ (funext fun a => Fin.ext ?_)
  match a with
  | ⟨0, _⟩ => show win1_1.index t (0 : Fin 2) * 256 + 1 * (x 0).val = (x 0).val; rw [e0]; omega
  | ⟨1, _⟩ => show win1_1.index t (1 : Fin 2) * 256 + 1 * (x 1).val = (x 1).val; rw [e1]; omega

/-- The bias window's one block is the whole one-row array. -/
theorem iblk1_2_apply (c : Dev nD) (t : Fin cfg1.N) (x : S1x256.Idx) :
    (iblk1 V c 2 t : Vec Ideal S1x256 .f32) x = (V c main_v53 : S1x256.Idx → EReal) x := by
  obtain ⟨-, -, -, -, e0, e1, -⟩ := idx_facts1 t
  unfold iblk1
  rw [View.read_apply]
  show V c main_v53 _ = V c main_v53 _
  refine congrArg _ (funext fun a => Fin.ext ?_)
  match a with
  | ⟨0, _⟩ => show win1_2.index t (0 : Fin 2) * 1 + 1 * (x 0).val = (x 0).val; rw [e0]; omega
  | ⟨1, _⟩ => show win1_2.index t (1 : Fin 2) * 256 + 1 * (x 1).val = (x 1).val; rw [e1]; omega

/-- What point `t` writes back is block `t` of `G1` of the operand arrays as the region finds them. -/
theorem flushed1_eq (c : Dev nD) (t : Fin cfg1.N) :
    (dat1 V c).flushed 3 t
      = ((cfg1.win 3).blk t).view.read (Elt Ideal) (G1 (V c main_v52) (V c main_arg6) (V c main_v53)) := by
  obtain ⟨-, -, -, -, -, -, e0, e1⟩ := idx_facts1 t
  show (cfg1.win 3).cut (grid1.coords t) ((dat1 V c).after 3 t) = _
  rw [after1_3]
  unfold out1_3
  rw [View.canon_unit_zero hz1]
  simp only [View.ld_unit_zero (S := S4000x256) hz1, View.ld_unit_zero (S := S256x256) hz1, View.ld_unit_zero (S := S1x256) hz1]
  funext y
  obtain ⟨p, q, rfl⟩ : ∃ (p : Fin 4000) (q : Fin 256), y = ix2 p q := ⟨y 0, y 1, eq_ix2 y⟩
  refine (pay1_apply (iblk1 V c 0 t) (iblk1 V c 1 t) (iblk1 V c 2 t) p q).trans ?_
  have hp : t.val * 4000 + p.val < 40000 := by have := t.isLt; have hN : cfg1.N = 10 := N_1; have := p.isLt; omega
  have hemb : ((cfg1.win 3).blk t).view.emb (ix2 p q) = (ix2 (⟨t.val * 4000 + p.val, hp⟩ : Fin 40000) q : S40000x256.Idx) := by
    funext a
    apply Fin.ext
    match a with
    | ⟨0, _⟩ => show win1_3.index t (0 : Fin 2) * 4000 + 1 * p.val = t.val * 4000 + p.val; rw [e0]; omega
    | ⟨1, _⟩ => show win1_3.index t (1 : Fin 2) * 256 + 1 * q.val = q.val; rw [e1]; omega
  rw [View.read_apply, hemb, G1_ix2]
  unfold cell1
  simp only [iblk1_1_apply V c t, iblk1_2_apply V c t]
  refine congrArg leaky ?_
  refine congrArg (· + _) (Finset.sum_congr rfl fun k _ => ?_)
  rw [iblk1_0_apply V c t (ix2 p k) (ix2 (⟨t.val * 4000 + p.val, hp⟩ : Fin 40000) k) rfl rfl]

/-- An index of the result array is in point `t`'s block iff each coordinate is in the block's range on its axis. -/
theorem mem_blk1 (t : Fin cfg1.N) (i : S40000x256.Idx) :
    i ∈ ((cfg1.win 3).blk t).view.set ↔ ∀ a : Fin 2, win1_3.index t a * S4000x256.size a ≤ (i a).val ∧ (i a).val < win1_3.index t a * S4000x256.size a + S4000x256.size a := by
  show i ∈ ((View.whole main_v54).slice (win1_3.rect t)).set ↔ _
  rw [View.set_slice_whole, Rect.mem_set_unit]
  exact Iff.rfl

/-- The result array after the region: `G1` of the operand arrays as found. -/
theorem final1 (c : Dev nD) :
    (dat1 V c).arrAt 3 cfg1.N = G1 (V c main_v52) (V c main_arg6) (V c main_v53) :=
  (dat1 V c).arrAt_eq_of_cover 3 _ (fun t _ => flushed1_eq V c t) fun i => by
    have hi0 : (i 0).val < 40000 := (i 0).isLt
    have hi1 : (i 1).val < 256 := (i 1).isLt
    have hN : cfg1.N = 10 := N_1
    refine ⟨⟨(i 0).val / 4000, by rw [hN]; omega⟩, flush1_3 _, ?_⟩
    obtain ⟨-, -, -, -, -, -, e0, e1⟩ := idx_facts1 ⟨(i 0).val / 4000, by rw [hN]; omega⟩
    rw [mem_blk1]
    intro a
    match a with
    | ⟨0, _⟩ => show win1_3.index _ (0 : Fin 2) * 4000 ≤ (i 0).val ∧ (i 0).val < win1_3.index _ (0 : Fin 2) * 4000 + 4000; rw [e0]; show (i 0).val / 4000 * 4000 ≤ (i 0).val ∧ (i 0).val < (i 0).val / 4000 * 4000 + 4000; omega
    | ⟨1, _⟩ => show win1_3.index _ (1 : Fin 2) * 256 ≤ (i 1).val ∧ (i 1).val < win1_3.index _ (1 : Fin 2) * 256 + 256; rw [e1]; omega

end Cert.KernelIdeal.KValue

end
-- ==== Proof.KRegion2.lean ====
/-
  Matmul region 2 as one function of its operand arrays: whatever the region finds in its three operand arrays when it
  is entered, its result array ends holding, at `(p, q)`, the `(∑ k, a (p, k) * w (k, q)) + b (0, q)`.
  Grid point `t` stages rows `128·t … 128·t + 127` of `a`, all of `w` and `b`, and writes back the same rows of the
  result; the 1 row blocks tile the result array.
-/
import proofs.«103749_j28406913696567_1_alg».proof.Proof.Gen.KernelIdeal.Frame
import proofs.«103749_j28406913696567_1_alg».proof.Proof.KPay
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.Dense

variable (V : (c : Dev nD) → (b : Ref sig .tc) → Buf (Elt Ideal) ((c : Thread nD τ).loc b))

theorem hz2 : (![0, 0] : Fin 2 → Nat) = fun _ => 0 := funext fun a => by fin_cases a <;> rfl

/-- The result at row `p`, column `q`. -/
def cell2 (a : S128x256.Idx → EReal) (w : S256x10.Idx → EReal) (b : S1x10.Idx → EReal) (p : Fin 128) (q : Fin 10) : EReal :=
  (∑ k : Fin 256, a (ix2 p k) * w (ix2 k q)) + b (ix2 (0 : Fin 1) q)

/-- The region's result array as one function of its operand arrays. -/
def G2 (a : S128x256.Idx → EReal) (w : S256x10.Idx → EReal) (b : S1x10.Idx → EReal) : S128x10.Idx → EReal :=
  fun i => cell2 a w b ⟨(i 0).val, idx2_lt0 i⟩ ⟨(i 1).val, idx2_lt1 i⟩

theorem G2_ix2 (a : S128x256.Idx → EReal) (w : S256x10.Idx → EReal) (b : S1x10.Idx → EReal) (p : Fin 128) (q : Fin 10) :
    G2 a w b (ix2 p q) = cell2 a w b p q := rfl

/-- The printed index maps over the grid: the row-blocked windows sit at block row `t`, every other block index is 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The row-blocked operand's block at point `t`: rows `128·t + …` of the array. -/
theorem iblk2_0_apply (c : Dev nD) (t : Fin cfg2.N) (x : S128x256.Idx) (k : S128x256.Idx)
    (hk0 : (k 0).val = t.val * 128 + (x 0).val) (hk1 : (k 1).val = (x 1).val) :
    (iblk2 V c 0 t : Vec Ideal S128x256 .f32) x = (V c main_v65 : S128x256.Idx → EReal) k := by
  obtain ⟨e0, e1, -⟩ := idx_facts2 t
  unfold iblk2
  rw [View.read_apply]
  show V c main_v65 _ = V c main_v65 _
  refine congrArg _ (funext fun a => Fin.ext ?_)
  match a with
  | ⟨0, _⟩ => show win2_0.index t (0 : Fin 2) * 128 + 1 * (x 0).val = (k 0).val; rw [e0, hk0]; omega
  | ⟨1, _⟩ => show win2_0.index t (1 : Fin 2) * 256 + 1 * (x 1).val = (k 1).val; rw [e1, hk1]; omega

/-- The weight window's one block is the whole array. -/
theorem iblk2_1_apply (c : Dev nD) (t : Fin cfg2.N) (x : S256x10.Idx) :
    (iblk2 V c 1 t : Vec Ideal S256x10 .f32) x = (V c main_arg8 : S256x10.Idx → EReal) x := by
  obtain ⟨-, -, e0, e1, -⟩ := idx_facts2 t
  unfold iblk2
  rw [View.read_apply]
  show V c main_arg8 _ = V c main_arg8 _
  refine congrArg _ (funext fun a => Fin.ext ?_)
  match a with
  | ⟨0, _⟩ => show win2_1.index t (0 : Fin 2) * 256 + 1 * (x 0).val = (x 0).val; rw [e0]; omega
  | ⟨1, _⟩ => show win2_1.index t (1 : Fin 2) * 10 + 1 * (x 1).val = (x 1).val; rw [e1]; omega

/-- The bias window's one block is the whole one-row array. -/
theorem iblk2_2_apply (c : Dev nD) (t : Fin cfg2.N) (x : S1x10.Idx) :
    (iblk2 V c 2 t : Vec Ideal S1x10 .f32) x = (V c main_v66 : S1x10.Idx → EReal) x := by
  obtain ⟨-, -, -, -, e0, e1, -⟩ := idx_facts2 t
  unfold iblk2
  rw [View.read_apply]
  show V c main_v66 _ = V c main_v66 _
  refine congrArg _ (funext fun a => Fin.ext ?_)
  match a with
  | ⟨0, _⟩ => show win2_2.index t (0 : Fin 2) * 1 + 1 * (x 0).val = (x 0).val; rw [e0]; omega
  | ⟨1, _⟩ => show win2_2.index t (1 : Fin 2) * 10 + 1 * (x 1).val = (x 1).val; rw [e1]; omega

/-- What point `t` writes back is block `t` of `G2` of the operand arrays as the region finds them. -/
theorem flushed2_eq (c : Dev nD) (t : Fin cfg2.N) :
    (dat2 V c).flushed 3 t
      = ((cfg2.win 3).blk t).view.read (Elt Ideal) (G2 (V c main_v65) (V c main_arg8) (V c main_v66)) := by
  obtain ⟨-, -, -, -, -, -, e0, e1⟩ := idx_facts2 t
  show (cfg2.win 3).cut (grid2.coords t) ((dat2 V c).after 3 t) = _
  rw [after2_3]
  unfold out2_3
  rw [View.canon_unit_zero hz2]
  simp only [View.ld_unit_zero (S := S128x256) hz2, View.ld_unit_zero (S := S256x10) hz2, View.ld_unit_zero (S := S1x10) hz2]
  funext y
  obtain ⟨p, q, rfl⟩ : ∃ (p : Fin 128) (q : Fin 10), y = ix2 p q := ⟨y 0, y 1, eq_ix2 y⟩
  refine (pay2_apply (iblk2 V c 0 t) (iblk2 V c 1 t) (iblk2 V c 2 t) p q).trans ?_
  have hp : t.val * 128 + p.val < 128 := by have := t.isLt; have hN : cfg2.N = 1 := N_2; have := p.isLt; omega
  have hemb : ((cfg2.win 3).blk t).view.emb (ix2 p q) = (ix2 (⟨t.val * 128 + p.val, hp⟩ : Fin 128) q : S128x10.Idx) := by
    funext a
    apply Fin.ext
    match a with
    | ⟨0, _⟩ => show win2_3.index t (0 : Fin 2) * 128 + 1 * p.val = t.val * 128 + p.val; rw [e0]; omega
    | ⟨1, _⟩ => show win2_3.index t (1 : Fin 2) * 10 + 1 * q.val = q.val; rw [e1]; omega
  rw [View.read_apply, hemb, G2_ix2]
  unfold cell2
  simp only [iblk2_1_apply V c t, iblk2_2_apply V c t]
  refine congrArg (· + _) (Finset.sum_congr rfl fun k _ => ?_)
  rw [iblk2_0_apply V c t (ix2 p k) (ix2 (⟨t.val * 128 + p.val, hp⟩ : Fin 128) k) rfl rfl]

/-- An index of the result array is in point `t`'s block iff each coordinate is in the block's range on its axis. -/
theorem mem_blk2 (t : Fin cfg2.N) (i : S128x10.Idx) :
    i ∈ ((cfg2.win 3).blk t).view.set ↔ ∀ a : Fin 2, win2_3.index t a * S128x10.size a ≤ (i a).val ∧ (i a).val < win2_3.index t a * S128x10.size a + S128x10.size a := by
  show i ∈ ((View.whole main_v67).slice (win2_3.rect t)).set ↔ _
  rw [View.set_slice_whole, Rect.mem_set_unit]
  exact Iff.rfl

/-- The result array after the region: `G2` of the operand arrays as found. -/
theorem final2 (c : Dev nD) :
    (dat2 V c).arrAt 3 cfg2.N = G2 (V c main_v65) (V c main_arg8) (V c main_v66) :=
  (dat2 V c).arrAt_eq_of_cover 3 _ (fun t _ => flushed2_eq V c t) fun i => by
    have hi0 : (i 0).val < 128 := (i 0).isLt
    have hi1 : (i 1).val < 10 := (i 1).isLt
    have hN : cfg2.N = 1 := N_2
    refine ⟨⟨(i 0).val / 128, by rw [hN]; omega⟩, flush2_3 _, ?_⟩
    obtain ⟨-, -, -, -, -, -, e0, e1⟩ := idx_facts2 ⟨(i 0).val / 128, by rw [hN]; omega⟩
    rw [mem_blk2]
    intro a
    match a with
    | ⟨0, _⟩ => show win2_3.index _ (0 : Fin 2) * 128 ≤ (i 0).val ∧ (i 0).val < win2_3.index _ (0 : Fin 2) * 128 + 128; rw [e0]; show (i 0).val / 128 * 128 ≤ (i 0).val ∧ (i 0).val < (i 0).val / 128 * 128 + 128; omega
    | ⟨1, _⟩ => show win2_3.index _ (1 : Fin 2) * 10 ≤ (i 1).val ∧ (i 1).val < win2_3.index _ (1 : Fin 2) * 10 + 10; rw [e1]; omega

end Cert.KernelIdeal.KValue

end
-- ==== Proof.RefSpec.lean ====
/-
  The reference's computation as a composition of named stages: one definition per mathematical step of the
  two-layer graph convolution with mean pooling, each spelt with the reference program's own operations, shape
  records and shape facts, generic in the float instance.

    deg idx        : the number of edges whose endpoint is each node (a scatter-add of ones into zeros)
    normCol idx    : 1 / sqrt (max 1 (deg idx)) as a column [40000, 1]
    wrapIdx idx    : a negative index counted from the end (idx + 40000), as an index column [640000, 1]
    agg128/agg256  : D_in^{-1/2} A D_out^{-1/2} h — scale the rows by the out-degree norm, gather the rows at the
                     edges' sources, scatter-add them at the edges' destinations, scale by the in-degree norm
    lrelu          : z where z ≥ 0, else 0.01 · z
    layer1/layer2  : lrelu (a · W + b)
    pool           : per graph, the sum of its nodes' rows divided by max 1 (the number of its nodes)
    head           : hg · Wc + bc
    out            : the whole network.
-/
import proofs.«103749_j28406913696567_1_alg».proof.ReferenceIdeal

noncomputable section

namespace Cert.ReferenceIdeal.Spec

open Idealize.ShloMosaic Cert.ReferenceIdeal
open Facts₀ Facts

variable {F : FTy → Type} [FloatOps F] [Facts]

/-- The contents of a buffer of shape `s` and element type `e`. -/
abbrev Arr (F : FTy → Type) (s : Shape) (e : EltTy) : Type := (⟨s, e⟩ : BufTy).Contents (Elt F)

/-- The number of edges with each node as the chosen endpoint: ones scattered and added into zeros. -/
def deg (idx : Arr F S640000 .i32) : Arr F S40000 .f32 :=
  Host.scatterAdd scatter_S40000_S640000x1_S640000_n_0_0_1
    (broadcastInDim S40000 ![] bcast_S_S40000 (constant S_ .f32 0x00000000#32))
    (broadcastInDim S640000x1 ![0] bcast_S640000_S640000x1_0 idx)
    (broadcastInDim S640000 ![] bcast_S_S640000 (constant S_ .f32 0x3F800000#32))

/-- The degree norm as a column: 1 / sqrt (max 1 deg). -/
def normCol (idx : Arr F S640000 .i32) : Arr F S40000x1 .f32 :=
  broadcastInDim S40000x1 ![0] bcast_S40000_S40000x1_0
    (Host.rsqrt (maximumf (broadcastInDim S40000 ![] bcast_S_S40000 (constant S_ .f32 0x3F800000#32)) (deg idx)))

/-- An edge endpoint as an index column, a negative one counted from the end. -/
def wrapIdx (idx : Arr F S640000 .i32) : Arr F S640000x1 .i32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 40000#32))) idx)

/-- Normalised neighbourhood aggregation of 128 features. -/
def agg128 (h : Arr F S40000x128 .f32) (cOut cIn : Arr F S40000x1 .f32) (src dst : Arr F S640000 .i32) :
    Arr F S40000x128 .f32 :=
  mulf
    (Host.scatterAdd scatter_S40000x128_S640000x1_S640000x128_1_0_0_1
      (broadcastInDim S40000x128 ![] bcast_S_S40000x128 (constant S_ .f32 0x00000000#32))
      (wrapIdx dst)
      (Host.gather gather_S40000x128_S640000x1_S640000x128_1_0_n_n_0_1_1128
        (mulf h (broadcastInDim S40000x128 ![0, 1] bcast_S40000x1_S40000x128_0_1 cOut)) (wrapIdx src)))
    (broadcastInDim S40000x128 ![0, 1] bcast_S40000x1_S40000x128_0_1 cIn)

/-- Normalised neighbourhood aggregation of 256 features. -/
def agg256 (h : Arr F S40000x256 .f32) (cOut cIn : Arr F S40000x1 .f32) (src dst : Arr F S640000 .i32) :
    Arr F S40000x256 .f32 :=
  mulf
    (Host.scatterAdd scatter_S40000x256_S640000x1_S640000x256_1_0_0_1
      (broadcastInDim S40000x256 ![] bcast_S_S40000x256 (constant S_ .f32 0x00000000#32))
      (wrapIdx dst)
      (Host.gather gather_S40000x256_S640000x1_S640000x256_1_0_n_n_0_1_1256
        (mulf h (broadcastInDim S40000x256 ![0, 1] bcast_S40000x1_S40000x256_0_1 cOut)) (wrapIdx src)))
    (broadcastInDim S40000x256 ![0, 1] bcast_S40000x1_S40000x256_0_1 cIn)

/-- The leaky rectifier with slope f32 (0.01): z where z ≥ 0, else slope · z. -/
def lrelu (z : Arr F S40000x256 .f32) : Arr F S40000x256 .f32 :=
  select (cmpf .oge z (broadcastInDim S40000x256 ![] bcast_S_S40000x256 (constant S_ .f32 0x00000000#32))) z
    (mulf (broadcastInDim S40000x256 ![] bcast_S_S40000x256 (constant S_ .f32 0x3C23D70A#32)) z)

/-- A bias row [256] added to every row of a [40000, 256] array. -/
def biasRows (b : Arr F S256 .f32) : Arr F S40000x256 .f32 :=
  broadcastInDim S40000x256 ![0, 1] bcast_S1x256_S40000x256_0_1 (broadcastInDim S1x256 ![1] bcast_S256_S1x256_1 b)

/-- The first layer: lrelu (a · W1 + b1). -/
def layer1 (a : Arr F S40000x128 .f32) (W : Arr F S128x256 .f32) (b : Arr F S256 .f32) : Arr F S40000x256 .f32 :=
  lrelu (addf (Host.dotGeneral dot_S40000x128_S128x256_S40000x256_1_0_0_1_n_n none a W) (biasRows b))

/-- The second layer: lrelu (a · W2 + b2). -/
def layer2 (a : Arr F S40000x256 .f32) (W : Arr F S256x256 .f32) (b : Arr F S256 .f32) : Arr F S40000x256 .f32 :=
  lrelu (addf (Host.dotGeneral dot_S40000x256_S256x256_S40000x256_1_0_0_1_n_n none a W) (biasRows b))

/-- Mean pooling per graph: the sum of a graph's node rows over max 1 (its node count). -/
def pool (h : Arr F S40000x256 .f32) (gid : Arr F S40000 .i32) : Arr F S128x256 .f32 :=
  Host.divf
    (Host.scatterAdd scatter_S128x256_S40000x1_S40000x256_1_0_0_1
      (broadcastInDim S128x256 ![] bcast_S_S128x256 (constant S_ .f32 0x00000000#32))
      (broadcastInDim S40000x1 ![0] bcast_S40000_S40000x1_0 gid) h)
    (broadcastInDim S128x256 ![0, 1] bcast_S128x1_S128x256_0_1
      (broadcastInDim S128x1 ![0] bcast_S128_S128x1_0
        (maximumf (broadcastInDim S128 ![] bcast_S_S128 (constant S_ .f32 0x3F800000#32))
          (Host.scatterAdd scatter_S128_S40000x1_S40000_n_0_0_1
            (broadcastInDim S128 ![] bcast_S_S128 (constant S_ .f32 0x00000000#32))
            (broadcastInDim S40000x1 ![0] bcast_S40000_S40000x1_0 gid)
            (broadcastInDim S40000 ![] bcast_S_S40000 (constant S_ .f32 0x3F800000#32))))))

/-- The classifier head: hg · Wc + bc. -/
def head (hg : Arr F S128x256 .f32) (Wc : Arr F S256x10 .f32) (bc : Arr F S10 .f32) : Arr F S128x10 .f32 :=
  addf (Host.dotGeneral dot_S128x256_S256x10_S128x10_1_0_0_1_n_n none hg Wc)
    (broadcastInDim S128x10 ![0, 1] bcast_S1x10_S128x10_0_1 (broadcastInDim S1x10 ![1] bcast_S10_S1x10_1 bc))

/-- The whole network, as the reference composes it. -/
def out (x : Arr F S40000x128 .f32) (src dst : Arr F S640000 .i32) (gid : Arr F S40000 .i32)
    (W1 : Arr F S128x256 .f32) (b1 : Arr F S256 .f32) (W2 : Arr F S256x256 .f32) (b2 : Arr F S256 .f32)
    (Wc : Arr F S256x10 .f32) (bc : Arr F S10 .f32) : Arr F S128x10 .f32 :=
  head (pool (layer2 (agg256 (layer1 (agg128 x (normCol src) (normCol dst) src dst) W1 b1)
    (normCol src) (normCol dst) src dst) W2 b2) gid) Wc bc

end Cert.ReferenceIdeal.Spec

end
-- ==== Proof.Bridge.lean ====
/-
  Each matmul region computes the reference's dense layer: at `(p, q)` both are the (rectified) sum over `k` of
  `a (p, k) * w (k, q)` plus the bias at `q` — the region reads the bias from the one-row reshape of the vector, the
  reference from the vector broadcast over the rows; the region's rectifier compares `z > 0` and multiplies by the slope
  on the right, the reference's compares `z ≥ 0` and multiplies on the left.
-/
import proofs.«103749_j28406913696567_1_alg».proof.Proof.KRegion0
import proofs.«103749_j28406913696567_1_alg».proof.Proof.KRegion1
import proofs.«103749_j28406913696567_1_alg».proof.Proof.KRegion2
import proofs.«103749_j28406913696567_1_alg».proof.Proof.Gen.ReferenceIdeal
import proofs.«103749_j28406913696567_1_alg».proof.Proof.RefSpec
import Idealize.ShloMosaic.Lib.ValueLayout
import Idealize.ShloMosaic.Lib.Pipeline.Value

noncomputable section

namespace Cert.Bridge

open Idealize.ShloMosaic Idealize.ShloMosaic.ValueIdx Cert.Dense
open Cert.KernelIdeal.KValue (G0 G1 G2 G0_ix2 G1_ix2 G2_ix2 cell0 cell1 cell2)

/-- A bias vector broadcast over the rows, read at `(p, q)`, is the vector at `q`. -/
theorem biasRows_apply (b : Cert.ReferenceIdeal.Spec.Arr Ideal Cert.ReferenceIdeal.S256 .f32) (p : Fin 40000) (q : Fin 256) :
    Cert.ReferenceIdeal.Spec.biasRows b (ix2 p q) = b (ix1 q) := by
  unfold Cert.ReferenceIdeal.Spec.biasRows
  refine (broadcastInDim_apply _ _ _ (ix2 p q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The first region's result is the reference's first layer. -/
theorem layer1_eq (a : Cert.ReferenceIdeal.Spec.Arr Ideal Cert.ReferenceIdeal.S40000x128 .f32) (w : Cert.ReferenceIdeal.Spec.Arr Ideal Cert.ReferenceIdeal.S128x256 .f32)
    (b : Cert.ReferenceIdeal.Spec.Arr Ideal Cert.ReferenceIdeal.S256 .f32) :
    G0 a w (shapeCast Cert.KernelIdeal.S1x256 b Cert.KernelIdeal.Facts₀.shapeCasts_S256_S1x256) = Cert.ReferenceIdeal.Spec.layer1 a w b := by
  funext i
  obtain ⟨p, q, rfl⟩ : ∃ (p : Fin 40000) (q : Fin 256), i = ix2 p q := ⟨i 0, i 1, eq_ix2 i⟩
  rw [G0_ix2]
  have hD : Host.dotGeneral (F := Ideal) (φ₁ := .f32) (φ₂ := .f32) Cert.ReferenceIdeal.dot_S40000x128_S128x256_S40000x256_1_0_0_1_n_n none a w (ix2 p q)
      = ∑ k : Fin 128, a (ix2 p k) * w (ix2 k q) := PlainDot.dotGeneral_apply (φ₁ := .f32) (φ₂ := .f32) _ rfl none _ a w p q
  have hb : shapeCast Cert.KernelIdeal.S1x256 b Cert.KernelIdeal.Facts₀.shapeCasts_S256_S1x256 (ix2 (0 : Fin 1) q) = b (ix1 q) :=
    shapeCast_a_1a_apply b _ 0 q
  unfold cell0 Cert.ReferenceIdeal.Spec.layer1 Cert.ReferenceIdeal.Spec.lrelu
  simp only [select_apply, cmpf_apply, mulf_apply, addf_apply]
  rw [hD, biasRows_apply, hb]
  exact (select_oge _).symm

/-- The second region's result is the reference's second layer. -/
theorem layer2_eq (a : Cert.ReferenceIdeal.Spec.Arr Ideal Cert.ReferenceIdeal.S40000x256 .f32) (w : Cert.ReferenceIdeal.Spec.Arr Ideal Cert.ReferenceIdeal.S256x256 .f32)
    (b : Cert.ReferenceIdeal.Spec.Arr Ideal Cert.ReferenceIdeal.S256 .f32) :
    G1 a w (shapeCast Cert.KernelIdeal.S1x256 b Cert.KernelIdeal.Facts₀.shapeCasts_S256_S1x256) = Cert.ReferenceIdeal.Spec.layer2 a w b := by
  funext i
  obtain ⟨p, q, rfl⟩ : ∃ (p : Fin 40000) (q : Fin 256), i = ix2 p q := ⟨i 0, i 1, eq_ix2 i⟩
  rw [G1_ix2]
  have hD : Host.dotGeneral (F := Ideal) (φ₁ := .f32) (φ₂ := .f32) Cert.ReferenceIdeal.dot_S40000x256_S256x256_S40000x256_1_0_0_1_n_n none a w (ix2 p q)
      = ∑ k : Fin 256, a (ix2 p k) * w (ix2 k q) := PlainDot.dotGeneral_apply (φ₁ := .f32) (φ₂ := .f32) _ rfl none _ a w p q
  have hb : shapeCast Cert.KernelIdeal.S1x256 b Cert.KernelIdeal.Facts₀.shapeCasts_S256_S1x256 (ix2 (0 : Fin 1) q) = b (ix1 q) :=
    shapeCast_a_1a_apply b _ 0 q
  unfold cell1 Cert.ReferenceIdeal.Spec.layer2 Cert.ReferenceIdeal.Spec.lrelu
  simp only [select_apply, cmpf_apply, mulf_apply, addf_apply]
  rw [hD, biasRows_apply, hb]
  exact (select_oge _).symm

/-- The head's bias vector broadcast over the 128 rows, read at `(p, q)`, is the vector at `q`. -/
theorem headBias_apply (b : Cert.ReferenceIdeal.Spec.Arr Ideal Cert.ReferenceIdeal.S10 .f32) (p : Fin 128) (q : Fin 10) :
    broadcastInDim Cert.ReferenceIdeal.S128x10 ![0, 1] Cert.ReferenceIdeal.Facts₀.bcast_S1x10_S128x10_0_1
        (broadcastInDim Cert.ReferenceIdeal.S1x10 ![1] Cert.ReferenceIdeal.Facts₀.bcast_S10_S1x10_1 b) (ix2 p q) = b (ix1 q) := by
  refine (broadcastInDim_apply _ _ _ (ix2 p q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The last region's result is the reference's last layer. -/
theorem head_eq (a : Cert.ReferenceIdeal.Spec.Arr Ideal Cert.ReferenceIdeal.S128x256 .f32) (w : Cert.ReferenceIdeal.Spec.Arr Ideal Cert.ReferenceIdeal.S256x10 .f32)
    (b : Cert.ReferenceIdeal.Spec.Arr Ideal Cert.ReferenceIdeal.S10 .f32) :
    G2 a w (shapeCast Cert.KernelIdeal.S1x10 b Cert.KernelIdeal.Facts₀.shapeCasts_S10_S1x10) = Cert.ReferenceIdeal.Spec.head a w b := by
  funext i
  obtain ⟨p, q, rfl⟩ : ∃ (p : Fin 128) (q : Fin 10), i = ix2 p q := ⟨i 0, i 1, eq_ix2 i⟩
  rw [G2_ix2]
  have hD : Host.dotGeneral (F := Ideal) (φ₁ := .f32) (φ₂ := .f32) Cert.ReferenceIdeal.dot_S128x256_S256x10_S128x10_1_0_0_1_n_n none a w (ix2 p q)
      = ∑ k : Fin 256, a (ix2 p k) * w (ix2 k q) := PlainDot.dotGeneral_apply (φ₁ := .f32) (φ₂ := .f32) _ rfl none _ a w p q
  have hb : shapeCast Cert.KernelIdeal.S1x10 b Cert.KernelIdeal.Facts₀.shapeCasts_S10_S1x10 (ix2 (0 : Fin 1) q) = b (ix1 q) :=
    shapeCast_a_1a_apply b _ 0 q
  unfold cell2 Cert.ReferenceIdeal.Spec.head
  simp only [addf_apply]
  rw [hD, headBias_apply, hb]

end Cert.Bridge

end
-- ==== Proof.KSpecEq.lean ====
/-
  The shared host stages are the same functions in the two programs' spellings: the shape records differ only in the
  name of the program that states them, and the shape facts they carry are propositions.
-/
import proofs.«103749_j28406913696567_1_alg».proof.Proof.KSpec
import proofs.«103749_j28406913696567_1_alg».proof.Proof.RefSpec

noncomputable section

namespace Cert.KSpecEq

open Idealize.ShloMosaic

variable {F : FTy → Type} [FloatOps F] [Cert.KernelIdeal.Facts] [Cert.ReferenceIdeal.Facts]

theorem deg_eq (idx : Cert.KernelIdeal.Spec.Arr F Cert.KernelIdeal.S640000 .i32) : Cert.KernelIdeal.Spec.deg idx = Cert.ReferenceIdeal.Spec.deg idx := rfl

theorem normCol_eq (idx : Cert.KernelIdeal.Spec.Arr F Cert.KernelIdeal.S640000 .i32) : Cert.KernelIdeal.Spec.normCol idx = Cert.ReferenceIdeal.Spec.normCol idx := rfl

theorem wrapIdx_eq (idx : Cert.KernelIdeal.Spec.Arr F Cert.KernelIdeal.S640000 .i32) : Cert.KernelIdeal.Spec.wrapIdx idx = Cert.ReferenceIdeal.Spec.wrapIdx idx := rfl

theorem agg128_eq (h : Cert.KernelIdeal.Spec.Arr F Cert.KernelIdeal.S40000x128 .f32) (cOut cIn : Cert.KernelIdeal.Spec.Arr F Cert.KernelIdeal.S40000x1 .f32)
    (src dst : Cert.KernelIdeal.Spec.Arr F Cert.KernelIdeal.S640000 .i32) :
    Cert.KernelIdeal.Spec.agg128 h cOut cIn src dst = Cert.ReferenceIdeal.Spec.agg128 h cOut cIn src dst := rfl

theorem agg256_eq (h : Cert.KernelIdeal.Spec.Arr F Cert.KernelIdeal.S40000x256 .f32) (cOut cIn : Cert.KernelIdeal.Spec.Arr F Cert.KernelIdeal.S40000x1 .f32)
    (src dst : Cert.KernelIdeal.Spec.Arr F Cert.KernelIdeal.S640000 .i32) :
    Cert.KernelIdeal.Spec.agg256 h cOut cIn src dst = Cert.ReferenceIdeal.Spec.agg256 h cOut cIn src dst := rfl

theorem pool_eq (h : Cert.KernelIdeal.Spec.Arr F Cert.KernelIdeal.S40000x256 .f32) (gid : Cert.KernelIdeal.Spec.Arr F Cert.KernelIdeal.S40000 .i32) :
    Cert.KernelIdeal.Spec.pool h gid = Cert.ReferenceIdeal.Spec.pool h gid := rfl

end Cert.KSpecEq

end
-- ==== Proof.KFinal.lean ====
/-
  The idealized kernel's result as the reference's composition of stages applied to the argument arrays. Each matmul
  region's result array is its one function of what the region finds in its operand arrays; those are stages of the
  argument arrays or of the previous region's result; a region is the reference's dense layer; and the shared host
  stages are the same functions in either program's spelling. Composed: the result buffer at the last boundary holds
  the whole network of the arguments.
-/
import proofs.«103749_j28406913696567_1_alg».proof.Proof.KHost5a
import proofs.«103749_j28406913696567_1_alg».proof.Proof.KHost5b
import proofs.«103749_j28406913696567_1_alg».proof.Proof.KHost5c
import proofs.«103749_j28406913696567_1_alg».proof.Proof.KHost7
import proofs.«103749_j28406913696567_1_alg».proof.Proof.KHost11
import proofs.«103749_j28406913696567_1_alg».proof.Proof.Bridge
import proofs.«103749_j28406913696567_1_alg».proof.Proof.KSpecEq

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- After the first region its result array holds the first layer of the aggregated input features. -/
theorem W6_v33 : W6 m ρ c (Proc.devRef .tc main_v33) = (Cert.ReferenceIdeal.Spec.layer1 (Cert.ReferenceIdeal.Spec.agg128 (m ((c : Thread nD τ).loc main_arg0)) (Cert.ReferenceIdeal.Spec.normCol (m ((c : Thread nD τ).loc main_arg1))) (Cert.ReferenceIdeal.Spec.normCol (m ((c : Thread nD τ).loc main_arg2))) (m ((c : Thread nD τ).loc main_arg1)) (m ((c : Thread nD τ).loc main_arg2))) (m ((c : Thread nD τ).loc main_arg4)) (m ((c : Thread nD τ).loc main_arg5))) := by
  refine (W6_arr m ρ c 3).trans ?_
  rw [final0 (V5 m ρ) c]
  show G0 (W5 m ρ c (Proc.devRef .tc main_v31)) (W5 m ρ c (Proc.devRef .tc main_arg4)) (W5 m ρ c (Proc.devRef .tc main_v32)) = _
  rw [W5_v31, W5_arg4, W5_v32]
  simp only [Cert.KSpecEq.agg128_eq, Cert.KSpecEq.normCol_eq]
  exact Cert.Bridge.layer1_eq _ _ _

/-- After the second region its result array holds the second layer of the aggregated first layer. -/
theorem W8_v54 : W8 m ρ c (Proc.devRef .tc main_v54) = (Cert.ReferenceIdeal.Spec.layer2 (Cert.ReferenceIdeal.Spec.agg256 (Cert.ReferenceIdeal.Spec.layer1 (Cert.ReferenceIdeal.Spec.agg128 (m ((c : Thread nD τ).loc main_arg0)) (Cert.ReferenceIdeal.Spec.normCol (m ((c : Thread nD τ).loc main_arg1))) (Cert.ReferenceIdeal.Spec.normCol (m ((c : Thread nD τ).loc main_arg2))) (m ((c : Thread nD τ).loc main_arg1)) (m ((c : Thread nD τ).loc main_arg2))) (m ((c : Thread nD τ).loc main_arg4)) (m ((c : Thread nD τ).loc main_arg5))) (Cert.ReferenceIdeal.Spec.normCol (m ((c : Thread nD τ).loc main_arg1))) (Cert.ReferenceIdeal.Spec.normCol (m ((c : Thread nD τ).loc main_arg2))) (m ((c : Thread nD τ).loc main_arg1)) (m ((c : Thread nD τ).loc main_arg2))) (m ((c : Thread nD τ).loc main_arg6)) (m ((c : Thread nD τ).loc main_arg7))) := by
  refine (W8_arr m ρ c 3).trans ?_
  rw [final1 (V7 m ρ) c]
  show G1 (W7 m ρ c (Proc.devRef .tc main_v52)) (W7 m ρ c (Proc.devRef .tc main_arg6)) (W7 m ρ c (Proc.devRef .tc main_v53)) = _
  rw [W7_v52, W7_arg6, W7_v53]
  rw [W6_v33, W6_of_ne m ρ c main_v10 (by decide), W6_of_ne m ρ c main_v12 (by decide), W6_of_ne m ρ c main_arg1 (by decide),
    W6_of_ne m ρ c main_arg2 (by decide), W6_of_ne m ρ c main_arg6 (by decide), W6_of_ne m ρ c main_arg7 (by decide)]
  rw [W5_v10, W5_v12, W5_arg1, W5_arg2, W5_arg6, W5_arg7]
  simp only [Cert.KSpecEq.agg256_eq, Cert.KSpecEq.normCol_eq]
  exact Cert.Bridge.layer2_eq _ _ _

/-- At the last boundary the result buffer holds the whole network of the argument arrays. -/
theorem W12_v67 : W12 m ρ c (Proc.devRef .tc main_v67)
    = Cert.ReferenceIdeal.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 3).trans ?_
  rw [final2 (V11 m ρ) c]
  show G2 (W11 m ρ c (Proc.devRef .tc main_v65)) (W11 m ρ c (Proc.devRef .tc main_arg8)) (W11 m ρ c (Proc.devRef .tc main_v66)) = _
  rw [W11_v65, W11_arg8, W11_v66]
  rw [W8_v54, W8_of_ne m ρ c main_arg3 (by decide), W8_of_ne m ρ c main_arg8 (by decide), W8_of_ne m ρ c main_arg9 (by decide)]
  rw [W7_arg3, W7_arg8, W7_arg9, W6_of_ne m ρ c main_arg3 (by decide), W6_of_ne m ρ c main_arg8 (by decide),
    W6_of_ne m ρ c main_arg9 (by decide), W5_arg3, W5_arg8, W5_arg9]
  simp only [Cert.KSpecEq.pool_eq]
  exact Cert.Bridge.head_eq _ _ _

end Cert.KernelIdeal.KValue

end
-- ==== Proof.RefOps.lean ====
/-
  The reference program as a straight line of host operations.

  @main's two printed windows, with every call of an outlined function replaced by the callee's operations over
  the buffers that call names (a clamp from below is three operations: the bound converted to its own type,
  broadcast, the maximum; the leaky rectifier is seven: the zero and its broadcast, the comparison, the slope
  converted and broadcast, the product, and the select of the inner call); every buffer the line touches is a
  TensorCore buffer, and each window writes exactly the buffers of its own values.
-/
import proofs.«103749_j28406913696567_1_alg».proof.ReferenceIdeal
import Idealize.ShloMosaic.Lib.StableHlo.Run

noncomputable section

namespace Cert.ReferenceIdeal.RefValue

open Idealize.ShloMosaic Idealize.ShloMosaic.StableHlo Idealize.SL.Sem Cert.ReferenceIdeal
open Facts₀ Facts

variable {F : FTy → Type} [FloatOps F] [Facts]

/-- The first window's operations, in order: the two degree norms, the first aggregation and layer, the scaled input of the second aggregation and the wrapped source indices. -/
abbrev ops_part0 : List (HloOp τ sig (Elt F)) :=
  [ nullary main_cst (constant S_ .f32 0x3F800000#32),
    unary main_cst main_v0 (broadcastInDim S640000 ![] bcast_S_S640000 : (⟨S_, .f32⟩ : BufTy).Contents (Elt F) → (⟨S640000, .f32⟩ : BufTy).Contents (Elt F)),
    nullary main_cst_0 (constant S_ .f32 0x00000000#32),
    unary main_cst_0 main_v1 (broadcastInDim S40000 ![] bcast_S_S40000 : (⟨S_, .f32⟩ : BufTy).Contents (Elt F) → (⟨S40000, .f32⟩ : BufTy).Contents (Elt F)),
    unary main_arg1 main_v2 (broadcastInDim S640000x1 ![0] bcast_S640000_S640000x1_0 : (⟨S640000, .i32⟩ : BufTy).Contents (Elt F) → (⟨S640000x1, .i32⟩ : BufTy).Contents (Elt F)),
    ternary main_v1 main_v2 main_v0 main_v3 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    nullary main_cst_1 (constant S_ .f32 0x3F800000#32),
    TRef.unary (.of main_cst_1 : TRef sig ⟨S_, .f32⟩) main_call0.v0 id,
    TRef.unary main_call0.v0 main_call0.v1 (broadcastInDim S40000 ![] bcast_S_S40000),
    TRef.binary main_call0.v1 (.of main_v3 : TRef sig ⟨S40000, .f32⟩) main_call0.v2 maximumf,
    nullary main_cst_2 (constant S_ .f32 0x00000000#32),
    unary main_cst_2 main_v5 (broadcastInDim S40000 ![] bcast_S_S40000 : (⟨S_, .f32⟩ : BufTy).Contents (Elt F) → (⟨S40000, .f32⟩ : BufTy).Contents (Elt F)),
    unary main_arg2 main_v6 (broadcastInDim S640000x1 ![0] bcast_S640000_S640000x1_0 : (⟨S640000, .i32⟩ : BufTy).Contents (Elt F) → (⟨S640000x1, .i32⟩ : BufTy).Contents (Elt F)),
    ternary main_v5 main_v6 main_v0 main_v7 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    nullary main_cst_3 (constant S_ .f32 0x3F800000#32),
    TRef.unary (.of main_cst_3 : TRef sig ⟨S_, .f32⟩) main_call1.v0 id,
    TRef.unary main_call1.v0 main_call1.v1 (broadcastInDim S40000 ![] bcast_S_S40000),
    TRef.binary main_call1.v1 (.of main_v7 : TRef sig ⟨S40000, .f32⟩) main_call1.v2 maximumf,
    unary main_v4 main_v9 (Host.rsqrt : (⟨S40000, .f32⟩ : BufTy).Contents (Elt F) → (⟨S40000, .f32⟩ : BufTy).Contents (Elt F)),
    unary main_v9 main_v10 (broadcastInDim S40000x1 ![0] bcast_S40000_S40000x1_0 : (⟨S40000, .f32⟩ : BufTy).Contents (Elt F) → (⟨S40000x1, .f32⟩ : BufTy).Contents (Elt F)),
    unary main_v8 main_v11 (Host.rsqrt : (⟨S40000, .f32⟩ : BufTy).Contents (Elt F) → (⟨S40000, .f32⟩ : BufTy).Contents (Elt F)),
    unary main_v11 main_v12 (broadcastInDim S40000x1 ![0] bcast_S40000_S40000x1_0 : (⟨S40000, .f32⟩ : BufTy).Contents (Elt F) → (⟨S40000x1, .f32⟩ : BufTy).Contents (Elt F)),
    unary main_v10 main_v13 (broadcastInDim S40000x128 ![0, 1] bcast_S40000x1_S40000x128_0_1 : (⟨S40000x1, .f32⟩ : BufTy).Contents (Elt F) → (⟨S40000x128, .f32⟩ : BufTy).Contents (Elt F)),
    binary main_arg0 main_v13 main_v14 (mulf : (⟨S40000x128, .f32⟩ : BufTy).Contents (Elt F) → (⟨S40000x128, .f32⟩ : BufTy).Contents (Elt F) → (⟨S40000x128, .f32⟩ : BufTy).Contents (Elt F)),
    nullary main_cst_4 (constant S_ .f32 0x00000000#32),
    unary main_cst_4 main_v15 (broadcastInDim S40000x128 ![] bcast_S_S40000x128 : (⟨S_, .f32⟩ : BufTy).Contents (Elt F) → (⟨S40000x128, .f32⟩ : BufTy).Contents (Elt F)),
    nullary main_c (constantI S_ 32 0#32),
    unary main_c main_v16 (broadcastInDim S640000 ![] bcast_S_S640000 : (⟨S_, .i32⟩ : BufTy).Contents (Elt F) → (⟨S640000, .i32⟩ : BufTy).Contents (Elt F)),
    binary main_arg1 main_v16 main_v17 (cmpi .slt : (⟨S640000, .i32⟩ : BufTy).Contents (Elt F) → (⟨S640000, .i32⟩ : BufTy).Contents (Elt F) → (⟨S640000, .i1⟩ : BufTy).Contents (Elt F)),
    nullary main_c_5 (constantI S_ 32 40000#32),
    unary main_c_5 main_v18 (broadcastInDim S640000 ![] bcast_S_S640000 : (⟨S_, .i32⟩ : BufTy).Contents (Elt F) → (⟨S640000, .i32⟩ : BufTy).Contents (Elt F)),
    binary main_arg1 main_v18 main_v19 (addi : (⟨S640000, .i32⟩ : BufTy).Contents (Elt F) → (⟨S640000, .i32⟩ : BufTy).Contents (Elt F) → (⟨S640000, .i32⟩ : BufTy).Contents (Elt F)),
    ternary main_v17 main_v19 main_arg1 main_v20 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v20 main_v21 (broadcastInDim S640000x1 ![0] bcast_S640000_S640000x1_0 : (⟨S640000, .i32⟩ : BufTy).Contents (Elt F) → (⟨S640000x1, .i32⟩ : BufTy).Contents (Elt F)),
    binary main_v14 main_v21 main_v22 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    nullary main_c_6 (constantI S_ 32 0#32),
    unary main_c_6 main_v23 (broadcastInDim S640000 ![] bcast_S_S640000 : (⟨S_, .i32⟩ : BufTy).Contents (Elt F) → (⟨S640000, .i32⟩ : BufTy).Contents (Elt F)),
    binary main_arg2 main_v23 main_v24 (cmpi .slt : (⟨S640000, .i32⟩ : BufTy).Contents (Elt F) → (⟨S640000, .i32⟩ : BufTy).Contents (Elt F) → (⟨S640000, .i1⟩ : BufTy).Contents (Elt F)),
    nullary main_c_7 (constantI S_ 32 40000#32),
    unary main_c_7 main_v25 (broadcastInDim S640000 ![] bcast_S_S640000 : (⟨S_, .i32⟩ : BufTy).Contents (Elt F) → (⟨S640000, .i32⟩ : BufTy).Contents (Elt F)),
    binary main_arg2 main_v25 main_v26 (addi : (⟨S640000, .i32⟩ : BufTy).Contents (Elt F) → (⟨S640000, .i32⟩ : BufTy).Contents (Elt F) → (⟨S640000, .i32⟩ : BufTy).Contents (Elt F)),
    ternary main_v24 main_v26 main_arg2 main_v27 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v27 main_v28 (broadcastInDim S640000x1 ![0] bcast_S640000_S640000x1_0 : (⟨S640000, .i32⟩ : BufTy).Contents (Elt F) → (⟨S640000x1, .i32⟩ : BufTy).Contents (Elt F)),
    ternary main_v15 main_v28 main_v22 main_v29 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    unary main_v12 main_v30 (broadcastInDim S40000x128 ![0, 1] bcast_S40000x1_S40000x128_0_1 : (⟨S40000x1, .f32⟩ : BufTy).Contents (Elt F) → (⟨S40000x128, .f32⟩ : BufTy).Contents (Elt F)),
    binary main_v29 main_v30 main_v31 (mulf : (⟨S40000x128, .f32⟩ : BufTy).Contents (Elt F) → (⟨S40000x128, .f32⟩ : BufTy).Contents (Elt F) → (⟨S40000x128, .f32⟩ : BufTy).Contents (Elt F)),
    binary main_v31 main_arg4 main_v32 ((fun l r => Host.dotGeneral dot_S40000x128_S128x256_S40000x256_1_0_0_1_n_n none l r) : (⟨S40000x128, .f32⟩ : BufTy).Contents (Elt F) → (⟨S128x256, .f32⟩ : BufTy).Contents (Elt F) → (⟨S40000x256, .f32⟩ : BufTy).Contents (Elt F)),
    unary main_arg5 main_v33 (broadcastInDim S1x256 ![1] bcast_S256_S1x256_1 : (⟨S256, .f32⟩ : BufTy).Contents (Elt F) → (⟨S1x256, .f32⟩ : BufTy).Contents (Elt F)),
    unary main_v33 main_v34 (broadcastInDim S40000x256 ![0, 1] bcast_S1x256_S40000x256_0_1 : (⟨S1x256, .f32⟩ : BufTy).Contents (Elt F) → (⟨S40000x256, .f32⟩ : BufTy).Contents (Elt F)),
    binary main_v32 main_v34 main_v35 (addf : (⟨S40000x256, .f32⟩ : BufTy).Contents (Elt F) → (⟨S40000x256, .f32⟩ : BufTy).Contents (Elt F) → (⟨S40000x256, .f32⟩ : BufTy).Contents (Elt F)),
    nullary main_cst_8 (constant S_ .f32 0x3C23D70A#32),
    TRef.nullary main_call2.cst (constant S_ .f32 0x00000000#32),
    TRef.unary main_call2.cst main_call2.v0 (broadcastInDim S40000x256 ![] bcast_S_S40000x256),
    TRef.binary (.of main_v35 : TRef sig ⟨S40000x256, .f32⟩) main_call2.v0 main_call2.v1 (cmpf .oge),
    TRef.unary (.of main_cst_8 : TRef sig ⟨S_, .f32⟩) main_call2.v2 id,
    TRef.unary main_call2.v2 main_call2.v3 (broadcastInDim S40000x256 ![] bcast_S_S40000x256),
    TRef.binary main_call2.v3 (.of main_v35 : TRef sig ⟨S40000x256, .f32⟩) main_call2.v4 mulf,
    TRef.ternary main_call2.v1 (.of main_v35 : TRef sig ⟨S40000x256, .f32⟩) main_call2.v4 main_call2.call0.v0 select,
    unary main_v10 main_v37 (broadcastInDim S40000x256 ![0, 1] bcast_S40000x1_S40000x256_0_1 : (⟨S40000x1, .f32⟩ : BufTy).Contents (Elt F) → (⟨S40000x256, .f32⟩ : BufTy).Contents (Elt F)),
    binary main_v36 main_v37 main_v38 (mulf : (⟨S40000x256, .f32⟩ : BufTy).Contents (Elt F) → (⟨S40000x256, .f32⟩ : BufTy).Contents (Elt F) → (⟨S40000x256, .f32⟩ : BufTy).Contents (Elt F)),
    nullary main_cst_9 (constant S_ .f32 0x00000000#32),
    unary main_cst_9 main_v39 (broadcastInDim S40000x256 ![] bcast_S_S40000x256 : (⟨S_, .f32⟩ : BufTy).Contents (Elt F) → (⟨S40000x256, .f32⟩ : BufTy).Contents (Elt F)),
    nullary main_c_10 (constantI S_ 32 0#32),
    unary main_c_10 main_v40 (broadcastInDim S640000 ![] bcast_S_S640000 : (⟨S_, .i32⟩ : BufTy).Contents (Elt F) → (⟨S640000, .i32⟩ : BufTy).Contents (Elt F)),
    binary main_arg1 main_v40 main_v41 (cmpi .slt : (⟨S640000, .i32⟩ : BufTy).Contents (Elt F) → (⟨S640000, .i32⟩ : BufTy).Contents (Elt F) → (⟨S640000, .i1⟩ : BufTy).Contents (Elt F)),
    nullary main_c_11 (constantI S_ 32 40000#32),
    unary main_c_11 main_v42 (broadcastInDim S640000 ![] bcast_S_S640000 : (⟨S_, .i32⟩ : BufTy).Contents (Elt F) → (⟨S640000, .i32⟩ : BufTy).Contents (Elt F)),
    binary main_arg1 main_v42 main_v43 (addi : (⟨S640000, .i32⟩ : BufTy).Contents (Elt F) → (⟨S640000, .i32⟩ : BufTy).Contents (Elt F) → (⟨S640000, .i32⟩ : BufTy).Contents (Elt F)),
    ternary main_v41 main_v43 main_arg1 main_v44 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v44 main_v45 (broadcastInDim S640000x1 ![0] bcast_S640000_S640000x1_0 : (⟨S640000, .i32⟩ : BufTy).Contents (Elt F) → (⟨S640000x1, .i32⟩ : BufTy).Contents (Elt F)) ]

/-- The second window's operations, in order: the second aggregation and layer, the pooling and the head. -/
abbrev ops_part1 : List (HloOp τ sig (Elt F)) :=
  [ binary main_v38 main_v45 main_v46 ((fun x i => Host.gather gather_S40000x256_S640000x1_S640000x256_1_0_n_n_0_1_1256 x i) : (⟨S40000x256, .f32⟩ : BufTy).Contents (Elt F) → (⟨S640000x1, .i32⟩ : BufTy).Contents (Elt F) → (⟨S640000x256, .f32⟩ : BufTy).Contents (Elt F)),
    nullary main_c_12 (constantI S_ 32 0#32),
    unary main_c_12 main_v47 (broadcastInDim S640000 ![] bcast_S_S640000 : (⟨S_, .i32⟩ : BufTy).Contents (Elt F) → (⟨S640000, .i32⟩ : BufTy).Contents (Elt F)),
    binary main_arg2 main_v47 main_v48 (cmpi .slt : (⟨S640000, .i32⟩ : BufTy).Contents (Elt F) → (⟨S640000, .i32⟩ : BufTy).Contents (Elt F) → (⟨S640000, .i1⟩ : BufTy).Contents (Elt F)),
    nullary main_c_13 (constantI S_ 32 40000#32),
    unary main_c_13 main_v49 (broadcastInDim S640000 ![] bcast_S_S640000 : (⟨S_, .i32⟩ : BufTy).Contents (Elt F) → (⟨S640000, .i32⟩ : BufTy).Contents (Elt F)),
    binary main_arg2 main_v49 main_v50 (addi : (⟨S640000, .i32⟩ : BufTy).Contents (Elt F) → (⟨S640000, .i32⟩ : BufTy).Contents (Elt F) → (⟨S640000, .i32⟩ : BufTy).Contents (Elt F)),
    ternary main_v48 main_v50 main_arg2 main_v51 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v51 main_v52 (broadcastInDim S640000x1 ![0] bcast_S640000_S640000x1_0 : (⟨S640000, .i32⟩ : BufTy).Contents (Elt F) → (⟨S640000x1, .i32⟩ : BufTy).Contents (Elt F)),
    ternary main_v39 main_v52 main_v46 main_v53 ((fun x i u => Host.scatterAdd scatter_S40000x256_S640000x1_S640000x256_1_0_0_1 x i u) : (⟨S40000x256, .f32⟩ : BufTy).Contents (Elt F) → (⟨S640000x1, .i32⟩ : BufTy).Contents (Elt F) → (⟨S640000x256, .f32⟩ : BufTy).Contents (Elt F) → (⟨S40000x256, .f32⟩ : BufTy).Contents (Elt F)),
    unary main_v12 main_v54 (broadcastInDim S40000x256 ![0, 1] bcast_S40000x1_S40000x256_0_1 : (⟨S40000x1, .f32⟩ : BufTy).Contents (Elt F) → (⟨S40000x256, .f32⟩ : BufTy).Contents (Elt F)),
    binary main_v53 main_v54 main_v55 (mulf : (⟨S40000x256, .f32⟩ : BufTy).Contents (Elt F) → (⟨S40000x256, .f32⟩ : BufTy).Contents (Elt F) → (⟨S40000x256, .f32⟩ : BufTy).Contents (Elt F)),
    binary main_v55 main_arg6 main_v56 ((fun l r => Host.dotGeneral dot_S40000x256_S256x256_S40000x256_1_0_0_1_n_n none l r) : (⟨S40000x256, .f32⟩ : BufTy).Contents (Elt F) → (⟨S256x256, .f32⟩ : BufTy).Contents (Elt F) → (⟨S40000x256, .f32⟩ : BufTy).Contents (Elt F)),
    unary main_arg7 main_v57 (broadcastInDim S1x256 ![1] bcast_S256_S1x256_1 : (⟨S256, .f32⟩ : BufTy).Contents (Elt F) → (⟨S1x256, .f32⟩ : BufTy).Contents (Elt F)),
    unary main_v57 main_v58 (broadcastInDim S40000x256 ![0, 1] bcast_S1x256_S40000x256_0_1 : (⟨S1x256, .f32⟩ : BufTy).Contents (Elt F) → (⟨S40000x256, .f32⟩ : BufTy).Contents (Elt F)),
    binary main_v56 main_v58 main_v59 (addf : (⟨S40000x256, .f32⟩ : BufTy).Contents (Elt F) → (⟨S40000x256, .f32⟩ : BufTy).Contents (Elt F) → (⟨S40000x256, .f32⟩ : BufTy).Contents (Elt F)),
    nullary main_cst_14 (constant S_ .f32 0x3C23D70A#32),
    TRef.nullary main_call3.cst (constant S_ .f32 0x00000000#32),
    TRef.unary main_call3.cst main_call3.v0 (broadcastInDim S40000x256 ![] bcast_S_S40000x256),
    TRef.binary (.of main_v59 : TRef sig ⟨S40000x256, .f32⟩) main_call3.v0 main_call3.v1 (cmpf .oge),
    TRef.unary (.of main_cst_14 : TRef sig ⟨S_, .f32⟩) main_call3.v2 id,
    TRef.unary main_call3.v2 main_call3.v3 (broadcastInDim S40000x256 ![] bcast_S_S40000x256),
    TRef.binary main_call3.v3 (.of main_v59 : TRef sig ⟨S40000x256, .f32⟩) main_call3.v4 mulf,
    TRef.ternary main_call3.v1 (.of main_v59 : TRef sig ⟨S40000x256, .f32⟩) main_call3.v4 main_call3.call0.v0 select,
    nullary main_cst_15 (constant S_ .f32 0x00000000#32),
    unary main_cst_15 main_v61 (broadcastInDim S128x256 ![] bcast_S_S128x256 : (⟨S_, .f32⟩ : BufTy).Contents (Elt F) → (⟨S128x256, .f32⟩ : BufTy).Contents (Elt F)),
    unary main_arg3 main_v62 (broadcastInDim S40000x1 ![0] bcast_S40000_S40000x1_0 : (⟨S40000, .i32⟩ : BufTy).Contents (Elt F) → (⟨S40000x1, .i32⟩ : BufTy).Contents (Elt F)),
    ternary main_v61 main_v62 main_v60 main_v63 ((fun x i u => Host.scatterAdd scatter_S128x256_S40000x1_S40000x256_1_0_0_1 x i u) : (⟨S128x256, .f32⟩ : BufTy).Contents (Elt F) → (⟨S40000x1, .i32⟩ : BufTy).Contents (Elt F) → (⟨S40000x256, .f32⟩ : BufTy).Contents (Elt F) → (⟨S128x256, .f32⟩ : BufTy).Contents (Elt F)),
    nullary main_cst_16 (constant S_ .f32 0x3F800000#32),
    unary main_cst_16 main_v64 (broadcastInDim S40000 ![] bcast_S_S40000 : (⟨S_, .f32⟩ : BufTy).Contents (Elt F) → (⟨S40000, .f32⟩ : BufTy).Contents (Elt F)),
    nullary main_cst_17 (constant S_ .f32 0x00000000#32),
    unary main_cst_17 main_v65 (broadcastInDim S128 ![] bcast_S_S128 : (⟨S_, .f32⟩ : BufTy).Contents (Elt F) → (⟨S128, .f32⟩ : BufTy).Contents (Elt F)),
    unary main_arg3 main_v66 (broadcastInDim S40000x1 ![0] bcast_S40000_S40000x1_0 : (⟨S40000, .i32⟩ : BufTy).Contents (Elt F) → (⟨S40000x1, .i32⟩ : BufTy).Contents (Elt F)),
    ternary main_v65 main_v66 main_v64 main_v67 ((fun x i u => Host.scatterAdd scatter_S128_S40000x1_S40000_n_0_0_1 x i u) : (⟨S128, .f32⟩ : BufTy).Contents (Elt F) → (⟨S40000x1, .i32⟩ : BufTy).Contents (Elt F) → (⟨S40000, .f32⟩ : BufTy).Contents (Elt F) → (⟨S128, .f32⟩ : BufTy).Contents (Elt F)),
    nullary main_cst_18 (constant S_ .f32 0x3F800000#32),
    TRef.unary (.of main_cst_18 : TRef sig ⟨S_, .f32⟩) main_call4.v0 id,
    TRef.unary main_call4.v0 main_call4.v1 (broadcastInDim S128 ![] bcast_S_S128),
    TRef.binary main_call4.v1 (.of main_v67 : TRef sig ⟨S128, .f32⟩) main_call4.v2 maximumf,
    unary main_v68 main_v69 (broadcastInDim S128x1 ![0] bcast_S128_S128x1_0 : (⟨S128, .f32⟩ : BufTy).Contents (Elt F) → (⟨S128x1, .f32⟩ : BufTy).Contents (Elt F)),
    unary main_v69 main_v70 (broadcastInDim S128x256 ![0, 1] bcast_S128x1_S128x256_0_1 : (⟨S128x1, .f32⟩ : BufTy).Contents (Elt F) → (⟨S128x256, .f32⟩ : BufTy).Contents (Elt F)),
    binary main_v63 main_v70 main_v71 (Host.divf : (⟨S128x256, .f32⟩ : BufTy).Contents (Elt F) → (⟨S128x256, .f32⟩ : BufTy).Contents (Elt F) → (⟨S128x256, .f32⟩ : BufTy).Contents (Elt F)),
    binary main_v71 main_arg8 main_v72 ((fun l r => Host.dotGeneral dot_S128x256_S256x10_S128x10_1_0_0_1_n_n none l r) : (⟨S128x256, .f32⟩ : BufTy).Contents (Elt F) → (⟨S256x10, .f32⟩ : BufTy).Contents (Elt F) → (⟨S128x10, .f32⟩ : BufTy).Contents (Elt F)),
    unary main_arg9 main_v73 (broadcastInDim S1x10 ![1] bcast_S10_S1x10_1 : (⟨S10, .f32⟩ : BufTy).Contents (Elt F) → (⟨S1x10, .f32⟩ : BufTy).Contents (Elt F)),
    unary main_v73 main_v74 (broadcastInDim S128x10 ![0, 1] bcast_S1x10_S128x10_0_1 : (⟨S1x10, .f32⟩ : BufTy).Contents (Elt F) → (⟨S128x10, .f32⟩ : BufTy).Contents (Elt F)),
    binary main_v72 main_v74 main_v75 (addf : (⟨S128x10, .f32⟩ : BufTy).Contents (Elt F) → (⟨S128x10, .f32⟩ : BufTy).Contents (Elt F) → (⟨S128x10, .f32⟩ : BufTy).Contents (Elt F)) ]

/-- @main's operations, in order. -/
abbrev ops : List (HloOp τ sig (Elt F)) := ops_part0 ++ ops_part1

set_option maxRecDepth 8192 in
set_option maxHeartbeats 4000000 in
/-- The first window is that straight line: the outlined functions unfolded at their calls, sequencing reassociated. -/
theorem main_part0_eq (c : Dev nD) : main_part0 (F := F) c = seq ops_part0 := by
  simp only [main_part0, fn_clip.body, fn_leaky_relu.body, fn_where.body, seq, bind_assoc, pure_bind]
  rfl

set_option maxRecDepth 8192 in
set_option maxHeartbeats 4000000 in
/-- The second window likewise (it ends in the return, as the line does). -/
theorem main_part1_eq (c : Dev nD) : main_part1 (F := F) c = seq ops_part1 := by
  simp only [main_part1, fn_clip_0.body, fn_leaky_relu.body, fn_where.body, seq, bind_assoc, pure_bind]

set_option maxRecDepth 8192 in
/-- @main is the two windows in order, hence the whole line. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every buffer the first window touches is a TensorCore buffer. -/
theorem ops_part0_sub : (ops_part0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub ..⟩

set_option maxRecDepth 8192 in
/-- Every buffer the second window touches is a TensorCore buffer. -/
theorem ops_part1_sub : (ops_part1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-- One operation's written buffer is in a literal list of references. -/
local macro "writes_mem" : tactic =>
  `(tactic| (simp only [nullary_writes, unary_writes, binary_writes, ternary_writes, Finset.singleton_subset_iff, List.mem_toFinset]
             exact List.mem_map_of_mem (by decide)))

/-- The buffers the first window writes: one per value, the calls' included. -/
abbrev ops_part0_W : List (Ref sig .tc) := [main_cst, main_v0, main_cst_0, main_v1, main_v2, main_v3, main_cst_1, main_call0_v0, main_call0_v1, main_v4, main_cst_2, main_v5, main_v6, main_v7, main_cst_3, main_call1_v0, main_call1_v1, main_v8, main_v9, main_v10, main_v11, main_v12, main_v13, main_v14, main_cst_4, main_v15, main_c, main_v16, main_v17, main_c_5, main_v18, main_v19, main_v20, main_v21, main_v22, main_c_6, main_v23, main_v24, main_c_7, main_v25, main_v26, main_v27, main_v28, main_v29, main_v30, main_v31, main_v32, main_v33, main_v34, main_v35, main_cst_8, main_call2_cst, main_call2_v0, main_call2_v1, main_call2_v2, main_call2_v3, main_call2_v4, main_v36, main_v37, main_v38, main_cst_9, main_v39, main_c_10, main_v40, main_v41, main_c_11, main_v42, main_v43, main_v44, main_v45]
/-- The buffers the second window writes. -/
abbrev ops_part1_W : List (Ref sig .tc) := [main_v46, main_c_12, main_v47, main_v48, main_c_13, main_v49, main_v50, main_v51, main_v52, main_v53, main_v54, main_v55, main_v56, main_v57, main_v58, main_v59, main_cst_14, main_call3_cst, main_call3_v0, main_call3_v1, main_call3_v2, main_call3_v3, main_call3_v4, main_v60, main_cst_15, main_v61, main_v62, main_v63, main_cst_16, main_v64, main_cst_17, main_v65, main_v66, main_v67, main_cst_18, main_call4_v0, main_call4_v1, main_v68, main_v69, main_v70, main_v71, main_v72, main_v73, main_v74, main_v75]

set_option maxRecDepth 8192 in
theorem ops_part0_writes : (ops_part0 : List (HloOp τ sig (Elt F))).Forall fun op => op.writes ⊆ (ops_part0_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

set_option maxRecDepth 8192 in
theorem ops_part1_writes : (ops_part1 : List (HloOp τ sig (Elt F))).Forall fun op => op.writes ⊆ (ops_part1_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

end Cert.ReferenceIdeal.RefValue

end
-- ==== Proof.RefRun.lean ====
/-
  The reference program's run, read back as the staged specification.

  @main is a straight line of host operations (its two windows, the outlined functions' operations in place of
  their calls). Running a straight line folds each operation's function over the launch contents, so every
  buffer ends at a composed term of the ten arguments. The fold is read window by window: after the first
  window the four buffers the second one reads hold named stages of the specification (the in-degree norm, the
  wrapped source indices, the zeros, the first layer's output scaled by the out-degree norm); the second
  window's composed term over them is the whole network by unfolding its stages; the arguments' buffers are
  written by no operation and keep their launch contents.
-/
import proofs.«103749_j28406913696567_1_alg».proof.ReferenceIdeal
import proofs.«103749_j28406913696567_1_alg».proof.Proof.RefOps
import proofs.«103749_j28406913696567_1_alg».proof.Proof.RefSpec
import Idealize.ShloMosaic.Lib.StableHlo.Run
import Idealize.ShloMosaic.Lib.Pipeline.Frame

noncomputable section

namespace Cert.ReferenceIdeal.RefValue

open Idealize.ShloMosaic Idealize.ShloMosaic.StableHlo Idealize.SL.Sem Cert.ReferenceIdeal
open Facts₀ Facts

variable {F : FTy → Type} [FloatOps F] [Facts]

/-- The device's buffer contents after the first window. -/
def val1 (V0 : Valuation τ sig (Elt F)) : Valuation τ sig (Elt F) := after ops_part0 V0

/-- A buffer the first window does not write keeps its contents through it. -/
theorem val1_keep (V0 : Valuation τ sig (Elt F)) (r : Ref sig .tc) (h : r ∉ ops_part0_W) :
    val1 V0 (Proc.devRef .tc r) = V0 (Proc.devRef .tc r) :=
  after_of_writes_sub ops_part0 _ ops_part0_writes h

theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
theorem val1_main_arg4 (V0 : Valuation τ sig (Elt F)) : val1 V0 (no_index (Proc.devRef .tc main_arg4)) = V0 (Proc.devRef .tc main_arg4) :=
  val1_keep V0 main_arg4 (by decide)
theorem val1_main_arg5 (V0 : Valuation τ sig (Elt F)) : val1 V0 (no_index (Proc.devRef .tc main_arg5)) = V0 (Proc.devRef .tc main_arg5) :=
  val1_keep V0 main_arg5 (by decide)
theorem val1_main_arg6 (V0 : Valuation τ sig (Elt F)) : val1 V0 (no_index (Proc.devRef .tc main_arg6)) = V0 (Proc.devRef .tc main_arg6) :=
  val1_keep V0 main_arg6 (by decide)
theorem val1_main_arg7 (V0 : Valuation τ sig (Elt F)) : val1 V0 (no_index (Proc.devRef .tc main_arg7)) = V0 (Proc.devRef .tc main_arg7) :=
  val1_keep V0 main_arg7 (by decide)
theorem val1_main_arg8 (V0 : Valuation τ sig (Elt F)) : val1 V0 (no_index (Proc.devRef .tc main_arg8)) = V0 (Proc.devRef .tc main_arg8) :=
  val1_keep V0 main_arg8 (by decide)
theorem val1_main_arg9 (V0 : Valuation τ sig (Elt F)) : val1 V0 (no_index (Proc.devRef .tc main_arg9)) = V0 (Proc.devRef .tc main_arg9) :=
  val1_keep V0 main_arg9 (by decide)

set_option maxRecDepth 8192 in
set_option maxHeartbeats 4000000 in
/-- After the first window: the in-degree norm as a column (the clamp's bound converted to its own type is the bound). -/
theorem val1_main_v12 (V0 : Valuation τ sig (Elt F)) :
    val1 V0 (no_index (Proc.devRef .tc main_v12)) = Spec.normCol (V0 (Proc.devRef .tc main_arg2)) := by
  unfold val1
  simp only [ops_part0]
  after_results_simp
  rfl

set_option maxRecDepth 8192 in
set_option maxHeartbeats 4000000 in
/-- After the first window: the wrapped source indices as a column. -/
theorem val1_main_v45 (V0 : Valuation τ sig (Elt F)) :
    val1 V0 (no_index (Proc.devRef .tc main_v45)) = Spec.wrapIdx (V0 (Proc.devRef .tc main_arg1)) := by
  unfold val1
  simp only [ops_part0]
  after_results_simp
  rfl

set_option maxRecDepth 8192 in
set_option maxHeartbeats 4000000 in
/-- After the first window: the zeros the second aggregation adds into. -/
theorem val1_main_v39 (V0 : Valuation τ sig (Elt F)) :
    val1 V0 (no_index (Proc.devRef .tc main_v39)) = broadcastInDim S40000x256 ![] bcast_S_S40000x256 (constant S_ .f32 0x00000000#32) := by
  unfold val1
  simp only [ops_part0]
  after_results_simp

set_option maxRecDepth 8192 in
set_option maxHeartbeats 4000000 in
/-- After the first window: the first layer's output, its rows scaled by the out-degree norm. -/
theorem val1_main_v38 (V0 : Valuation τ sig (Elt F)) :
    val1 V0 (no_index (Proc.devRef .tc main_v38)) = mulf (Spec.layer1 (Spec.agg128 (V0 (Proc.devRef .tc main_arg0)) (Spec.normCol (V0 (Proc.devRef .tc main_arg1))) (Spec.normCol (V0 (Proc.devRef .tc main_arg2))) (V0 (Proc.devRef .tc main_arg1)) (V0 (Proc.devRef .tc main_arg2))) (V0 (Proc.devRef .tc main_arg4)) (V0 (Proc.devRef .tc main_arg5)))
        (broadcastInDim S40000x256 ![0, 1] bcast_S40000x1_S40000x256_0_1 (Spec.normCol (V0 (Proc.devRef .tc main_arg1)))) := by
  unfold val1
  simp only [ops_part0]
  after_results_simp
  rfl

/-- The device's buffer contents after both windows. -/
def val2 (V0 : Valuation τ sig (Elt F)) : Valuation τ sig (Elt F) := after ops_part1 (val1 V0)

/-- A buffer the second window does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h

theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)

set_option maxRecDepth 8192 in
set_option maxHeartbeats 4000000 in
/-- After both windows the result buffer holds the whole network of the arguments: the second window's composed
    term over the first window's four values, which is the specification's by unfolding its stages. -/
theorem val2_main_v75 (V0 : Valuation τ sig (Elt F)) :
    val2 V0 (no_index (Proc.devRef .tc main_v75)) = Spec.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val2
  simp only [ops_part1]
  after_results_simp
  simp only [val1_main_v38, val1_main_v45, val1_main_v39, val1_main_v12, val1_main_arg0, val1_main_arg1, val1_main_arg2, val1_main_arg3, val1_main_arg4, val1_main_arg5, val1_main_arg6, val1_main_arg7, val1_main_arg8, val1_main_arg9]
  rfl

/-- The whole line's fold is the second window's over the first's. -/
theorem after_ops (V0 : Valuation τ sig (Elt F)) : after ops V0 = val2 V0 := by
  simp only [ops, StableHlo.after_append]
  rfl

set_option maxRecDepth 8192 in
/-- On every device, for any float values, from any memory with zero counters: every weakly fair execution of
    @main terminates with the result buffer at the specified network of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75)
          = Spec.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v75).trans (by simp only [after_ops]; exact val2_main_v75 (launchContents m c)),
      (h c main_arg0).trans (by simp only [after_ops]; exact val2_main_arg0 (launchContents m c)),
      (h c main_arg1).trans (by simp only [after_ops]; exact val2_main_arg1 (launchContents m c)),
      (h c main_arg2).trans (by simp only [after_ops]; exact val2_main_arg2 (launchContents m c)),
      (h c main_arg3).trans (by simp only [after_ops]; exact val2_main_arg3 (launchContents m c)),
      (h c main_arg4).trans (by simp only [after_ops]; exact val2_main_arg4 (launchContents m c)),
      (h c main_arg5).trans (by simp only [after_ops]; exact val2_main_arg5 (launchContents m c)),
      (h c main_arg6).trans (by simp only [after_ops]; exact val2_main_arg6 (launchContents m c)),
      (h c main_arg7).trans (by simp only [after_ops]; exact val2_main_arg7 (launchContents m c)),
      (h c main_arg8).trans (by simp only [after_ops]; exact val2_main_arg8 (launchContents m c)),
      (h c main_arg9).trans (by simp only [after_ops]; exact val2_main_arg9 (launchContents m c))⟩)
    (run_seq scopedRefs_eq scopedSems_eq defs main (fun _ => ops) main_eq (fun _ => ops_sub) m ρ)

end Cert.ReferenceIdeal.RefValue

end
-- ==== Proof.lean ====
/-
  The certificate's claims for a two-layer graph convolution with mean pooling and a linear head.

  The kernel program runs the three dense layers (`leaky (a · W + b)` twice, then `hg · Wc + bc`) as matmul regions,
  each over row blocks of its left operand with the weights and the one-row bias whole, and everything else — the degree
  norms, the gather and scatter-add along the edges, the per-graph mean — as host operations, the same as the reference's.
  Over the extended reals a region's result at `(p, q)` is `∑ k, a (p, k) * w (k, q)` plus the bias at `q`, rectified in
  the first two: exactly the reference's `dot_general`, bias broadcast and leaky rectifier there (the roundings to bf16
  are the identity; the two spellings of the rectifier differ only at `0`, where both give `0`). So both programs end
  at one and the same composition of stages of the argument arrays; no finiteness of the inputs is used.

  The three frames: the kernel programs' are their generated frame certificates; the reference's is its run with the
  result dropped. The idealization rewrote nothing, so `preserves` is `True`.
-/
import proofs.«103749_j28406913696567_1_alg».proof.Defs
import proofs.«103749_j28406913696567_1_alg».proof.Proof.Gen.Kernel
import proofs.«103749_j28406913696567_1_alg».proof.Proof.Gen.Kernel.Frame
import proofs.«103749_j28406913696567_1_alg».proof.Proof.Gen.KernelIdeal
import proofs.«103749_j28406913696567_1_alg».proof.Proof.Gen.KernelIdeal.Frame
import proofs.«103749_j28406913696567_1_alg».proof.Proof.Gen.ReferenceIdeal
import proofs.«103749_j28406913696567_1_alg».proof.Proof.Gen.Pre_finite_inputs
import proofs.«103749_j28406913696567_1_alg».proof.Proof.KRun
import proofs.«103749_j28406913696567_1_alg».proof.Proof.KFinal
import proofs.«103749_j28406913696567_1_alg».proof.Proof.RefRun

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- Both idealized programs end with the whole network of the argument arrays in their result buffers. -/
theorem algebraic : Cert.algebraic_KernelIdeal_ReferenceIdeal := by
  intro m ρ m' ρ' _ hagree
  refine ⟨fun c => Cert.ReferenceIdeal.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KValue.W12_v67 m ρ c), (h c).2⟩)
      (Cert.KernelIdeal.KValue.run_value m ρ)
  · refine (θ_run Cert.ReferenceIdeal.defs _ _).mono (fun _ h c => ⟨?_, (h c).2⟩)
      (Cert.ReferenceIdeal.RefValue.run (F := Ideal) m' ρ')
    obtain ⟨e0, e1, e2, e3, e4, e5, e6, e7, e8, e9⟩ := hagree c
    rw [(h c).1, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
